-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩

abbrev nBuf : Space → Nat
  | .hbm => 139
  | .vmem => 52
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S1x1600000, .i32⟩
  | 6 => ⟨S1600000, .i32⟩
  | 7 => ⟨S1x1600000, .i32⟩
  | 8 => ⟨S1600000, .i32⟩
  | 9 => ⟨S128x128, .f32⟩
  | 10 => ⟨S128x128, .f32⟩
  | 11 => ⟨S128x128, .i32⟩
  | 12 => ⟨S128x128, .i32⟩
  | 13 => ⟨S_, .i32⟩
  | 14 => ⟨S128x128, .i32⟩
  | 15 => ⟨S128x128, .i32⟩
  | 16 => ⟨S128x128, .i1⟩
  | 17 => ⟨S128x128, .f32⟩
  | 18 => ⟨S_, .f32⟩
  | 19 => ⟨S128x128, .f32⟩
  | 20 => ⟨S128x128, .f32⟩
  | 21 => ⟨S128x128, .f32⟩
  | 22 => ⟨S128x128, .f32⟩
  | 23 => ⟨S128x128, .bf16⟩
  | 24 => ⟨S128x128, .f32⟩
  | 25 => ⟨S128x128, .bf16⟩
  | 26 => ⟨S1x128, .f32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S100000, .f32⟩
  | 58 => ⟨S100000x1, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x128, .f32⟩
  | 96 => ⟨S100000x128, .f32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x128, .f32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S100000x128, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x128, .bf16⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .bf16⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .bf16⟩
  | .local _ .vmem, ⟨21, _⟩ => ⟨S4000x128, .f32⟩
  | .local _ .vmem, ⟨22, _⟩ => ⟨S4000x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .bf16⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S128x128, .bf16⟩
  | .local _ .vmem, ⟨34, _⟩ => ⟨S4000x128, .f32⟩
  | .local _ .vmem, ⟨35, _⟩ => ⟨S4000x128, .f32⟩
  | .local _ .vmem, ⟨36, _⟩ => ⟨S1x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S128x128, .bf16⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x128, .bf16⟩
  | .local _ .vmem, ⟨47, _⟩ => ⟨S4000x128, .f32⟩
  | .local _ .vmem, ⟨48, _⟩ => ⟨S4000x128, .f32⟩
  | .local _ .vmem, ⟨49, _⟩ => ⟨S1x128, .f32⟩
  | .local _ .vmem, ⟨50, _⟩ => ⟨S4000x128, .f32⟩
  | .local _ .vmem, ⟨51, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_13 : Ref sig .tc := ⟨.hbm, 100, rfl⟩
abbrev main_v80 : Ref sig .tc := ⟨.hbm, 101, rfl⟩
abbrev main_v81 : Ref sig .tc := ⟨.hbm, 102, rfl⟩
abbrev main_c_14 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_16 : Ref sig .tc := ⟨.hbm, 120, rfl⟩
abbrev main_v97 : Ref sig .tc := ⟨.hbm, 121, rfl⟩
abbrev main_v98 : Ref sig .tc := ⟨.hbm, 122, rfl⟩
abbrev main_c_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg4_0 : Ref sig .tc := ⟨.vmem, 50, rfl⟩
abbrev cc7_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem2_1 : DmaSem sig := 48
abbrev cc7_sem3_0 : DmaSem sig := 49
abbrev cc7_sem4_0 : DmaSem sig := 50
abbrev cc7_sem4_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S4000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S128x128 : S_.BroadcastsInDim S128x128 (![] : Fin 0 → Fin S128x128.rank)
  bitsLt_bf16_f32 : FTy.bits .bf16 < FTy.bits .f32
  shapeCasts_S128_S1x128 : S128.ShapeCasts S1x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S100000x128.size a
  hwx6_2 : ∀ i : grid6.Coords, EltTy.bits .f32 = 32 ∨ (Rect.block (s := S100000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S100000x128.size a
  hwx7_2 : ∀ i : grid7.Coords, EltTy.bits .f32 = 32 ∨ (Rect.block (s := S100000x128) S4000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x128.size a ≤ S100000x128.size a
  hwx7_4 : ∀ i : grid7.Coords, EltTy.bits .f32 = 32 ∨ (Rect.block (s := S100000x128) S4000x128.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v19) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S4000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v95) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v18) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111) S4000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v19) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v112) S4000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 274
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S1x1600000, .i32⟩
  | 6 => ⟨S1600000, .i32⟩
  | 7 => ⟨S1x1600000, .i32⟩
  | 8 => ⟨S1600000, .i32⟩
  | 9 => ⟨S128x128, .f32⟩
  | 10 => ⟨S128x128, .f32⟩
  | 11 => ⟨S128x128, .i32⟩
  | 12 => ⟨S128x128, .i32⟩
  | 13 => ⟨S_, .i32⟩
  | 14 => ⟨S128x128, .i32⟩
  | 15 => ⟨S128x128, .i32⟩
  | 16 => ⟨S128x128, .i1⟩
  | 17 => ⟨S128x128, .f32⟩
  | 18 => ⟨S_, .f32⟩
  | 19 => ⟨S128x128, .f32⟩
  | 20 => ⟨S128x128, .f32⟩
  | 21 => ⟨S128x128, .f32⟩
  | 22 => ⟨S128x128, .f32⟩
  | 23 => ⟨S100000x128, .f32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S128x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S128x128, .f32⟩
  | 86 => ⟨S100000x128, .f32⟩
  | 87 => ⟨S_, .f32⟩
  | 88 => ⟨S1600000, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S1600000x1, .f32⟩
  | 126 => ⟨S1600000x128, .f32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S100000, .f32⟩
  | 5 => ⟨S100000x1, .f32⟩
  | 6 => ⟨S100000x128, .f32⟩
  | 7 => ⟨S100000x128, .f32⟩
  | 8 => ⟨S100000x128, .f32⟩
  | 9 => ⟨S128x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S128x128, .f32⟩
  | 21 => ⟨S100000x128, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S128x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S128x128, .f32⟩
  | 84 => ⟨S100000x128, .f32⟩
  | 85 => ⟨S_, .f32⟩
  | 86 => ⟨S1600000, .f32⟩
  | 87 => ⟨S_, .f32⟩
  | 88 => ⟨S100000, .f32⟩
  | 89 => ⟨S1600000x1, .i32⟩
  | 90 => ⟨S100000, .f32⟩
  | 91 => ⟨S_, .f32⟩
  | 92 => ⟨S100000, .f32⟩
  | 93 => ⟨S100000, .f32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x1, .f32⟩
  | 124 => ⟨S1600000x128, .f32⟩
  | 125 => ⟨S1600000x128, .f32⟩
  | 126 => ⟨S_, .f32⟩
  | 127 => ⟨S100000x128, .f32⟩
  | _ => ⟨S100000x128, .f32⟩

abbrev hbmTy0_2 (i : Nat) : BufTy := match i % 128 with
  | 0 => ⟨S1600000x1, .i32⟩
  | 1 => ⟨S100000x128, .f32⟩
  | 2 => ⟨S100000, .f32⟩
  | 3 => ⟨S100000x1, .f32⟩
  | 4 => ⟨S100000x128, .f32⟩
  | 5 => ⟨S100000x128, .f32⟩
  | 6 => ⟨S100000x128, .f32⟩
  | 7 => ⟨S128x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_14 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_16 : Ref sig .tc := ⟨.hbm, 106, rfl⟩
abbrev main_v83 : Ref sig .tc := ⟨.hbm, 107, rfl⟩
abbrev main_v84 : Ref sig .tc := ⟨.hbm, 108, rfl⟩
abbrev main_c_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_18 : Ref sig .tc := ⟨.hbm, 116, rfl⟩
abbrev main_v91 : Ref sig .tc := ⟨.hbm, 117, rfl⟩
abbrev main_v92 : Ref sig .tc := ⟨.hbm, 118, rfl⟩
abbrev main_c_19 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_20 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_21 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_cst_23 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_24 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_c_25 : Ref sig .tc := ⟨.hbm, 160, rfl⟩
abbrev main_v128 : Ref sig .tc := ⟨.hbm, 161, rfl⟩
abbrev main_v129 : Ref sig .tc := ⟨.hbm, 162, rfl⟩
abbrev main_c_26 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c_27 : Ref sig .tc := ⟨.hbm, 169, rfl⟩
abbrev main_v135 : Ref sig .tc := ⟨.hbm, 170, rfl⟩
abbrev main_v136 : Ref sig .tc := ⟨.hbm, 171, rfl⟩
abbrev main_c_28 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_c_29 : Ref sig .tc := ⟨.hbm, 179, rfl⟩
abbrev main_v143 : Ref sig .tc := ⟨.hbm, 180, rfl⟩
abbrev main_v144 : Ref sig .tc := ⟨.hbm, 181, rfl⟩
abbrev main_c_30 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_31 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_32 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_33 : Ref sig .tc := ⟨.hbm, 213, rfl⟩
abbrev main_v173 : Ref sig .tc := ⟨.hbm, 214, rfl⟩
abbrev main_cst_34 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_35 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_c_36 : Ref sig .tc := ⟨.hbm, 223, rfl⟩
abbrev main_v180 : Ref sig .tc := ⟨.hbm, 224, rfl⟩
abbrev main_v181 : Ref sig .tc := ⟨.hbm, 225, rfl⟩
abbrev main_c_37 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_c_38 : Ref sig .tc := ⟨.hbm, 232, rfl⟩
abbrev main_v187 : Ref sig .tc := ⟨.hbm, 233, rfl⟩
abbrev main_v188 : Ref sig .tc := ⟨.hbm, 234, rfl⟩
abbrev main_c_39 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_c_40 : Ref sig .tc := ⟨.hbm, 242, rfl⟩
abbrev main_v195 : Ref sig .tc := ⟨.hbm, 243, rfl⟩
abbrev main_v196 : Ref sig .tc := ⟨.hbm, 244, rfl⟩
abbrev main_c_41 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_42 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_cst_43 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S128x128 : S_.BroadcastsInDim S128x128 (![] : Fin 0 → Fin S128x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The run of the kernel program with its result array named.

  The program is thirteen segments in order: five stretches of host operations and eight pipelined kernel calls.
  The buffer contents at each segment boundary are a fold from the launch memory: a stretch of host operations
  applies them; a call leaves its arrays at what its write-backs fold to and every other buffer alone. Every
  weakly fair execution terminates with each unscoped buffer at the last boundary's contents; the frame module
  reads the five argument arrays off that final state, and here the result array is read off it as well.
-/
import proofs.«162889_j14310831030632_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the five
    argument arrays as launched. -/
theorem run_result : θ_run defs (onTc (τ := τ) (main (F := F))) ⟨m, fun _ => 0, ρ⟩ (fun r => ∀ c : Dev nD,
      r.2.mem ((c.tc : Thread nD τ).loc main_v112) = W13 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v112 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.KernelIdeal.Run

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Layer.lean ====
/-
  One layer of the anti-symmetric graph convolution, entry by entry, on the extended reals.

  A node-feature matrix x (100000 × 128) is updated to
      x + ε · tanh (x·Aᵀ + g + b)
  where x·Aᵀ is a plain 128-term product, g is the aggregated neighbourhood term (any array of x's shape) and b a
  row of 128 biases added to every row. The product x·w is written `mm x w`; the update `upd x a g b`.

  The same two functions are what a 4000-row block of the arrays computes: a block's entry (p, c) depends on
  row p of the block of x, on all of the weight matrix, on entry (p, c) of the block of g and on b at c. The
  block statements below are stated for any vector program that spells the product as a matrix product into a
  zero accumulator with its left operand narrowed to bf16 (the identity on the extended reals).
-/
import Idealize.ShloMosaic.PureOps.Ideal.Laws
import Idealize.ShloMosaic.Lib.ValueIdx
import Idealize.ShloMosaic.Lib.ValueLayout
import Idealize.ShloMosaic.Lib.Pipeline.Value
import proofs.«162889_j14310831030632_1_alg».proof.Proof.LibPlainDot

noncomputable section

namespace Cert.Layer

open Idealize.ShloMosaic Idealize.ShloMosaic.ValueIdx

/-- Node features: 100000 nodes, 128 features. -/
abbrev SN : Shape := ⟨2, ![100000, 128]⟩
/-- A 128 × 128 weight matrix. -/
abbrev SW : Shape := ⟨2, ![128, 128]⟩
/-- One row of 128 biases. -/
abbrev SR : Shape := ⟨2, ![1, 128]⟩
/-- A block of 4000 nodes. -/
abbrev SB : Shape := ⟨2, ![4000, 128]⟩

/-- The product x·w at an entry: the sum over the 128 features. -/
def mm {n : Nat} (x : (⟨2, ![n, 128]⟩ : Shape).Idx → EReal) (w : SW.Idx → EReal) : (⟨2, ![n, 128]⟩ : Shape).Idx → EReal :=
  fun i => ∑ k : Fin 128, x (ix2 (i 0) k) * w (ix2 k (i 1))

/-- The step size ε, the float nearest one tenth. -/
def eps : EReal := Ideal.ofBits .f32 0x3DCCCCCD#32

/-- The update x + ε · tanh (x·a + g + b) at an entry. -/
def upd {n : Nat} (x : (⟨2, ![n, 128]⟩ : Shape).Idx → EReal) (a : SW.Idx → EReal) (g : (⟨2, ![n, 128]⟩ : Shape).Idx → EReal)
    (b : SR.Idx → EReal) : (⟨2, ![n, 128]⟩ : Shape).Idx → EReal :=
  fun i => x i + eps * Ideal.tanh ((mm x a i + g i) + b (ix2 (0 : Fin 1) (i 1)))

/-- A block's product into the zero accumulator, its left operand narrowed to bf16, is `mm` of the block. -/
theorem matmul_block (D : DotDims SB SW SB) (hD : D = DotDims.plain 4000 128 128)
    (x : FVec Ideal SB .f32) (w : FVec Ideal SW .bf16) (hlt : FTy.bf16.bits < FTy.f32.bits) (hc : SW.ShapeCasts SW) :
    matmul D none (truncf .bf16 x hlt) (shapeCast SW w hc) (constant (F := Ideal) SB .f32 0x00000000#32) = mm x w := by
  funext j
  rw [shapeCast_self]
  exact PlainDot.matmul_zero_apply D hD none (truncf .bf16 x hlt) w j

/-- A block's update, as the vector program spells it, is `upd` of the block. -/
theorem update_block (D : DotDims SB SW SB) (hD : D = DotDims.plain 4000 128 128)
    (x : FVec Ideal SB .f32) (w : FVec Ideal SW .bf16) (g : FVec Ideal SB .f32) (b : FVec Ideal SR .f32)
    (hlt : FTy.bf16.bits < FTy.f32.bits) (hc : SW.ShapeCasts SW) (hg : SB.ShapeCasts SB) (hr : SR.ShapeCasts SR)
    (hb : SR.Broadcasts SB) :
    addf x (mulf (broadcast SB (Scalar.ofBits (F := Ideal) .f32 0x3DCCCCCD#32))
      (tanh (addf (addf (matmul D none (truncf .bf16 x hlt) (shapeCast SW w hc) (constant (F := Ideal) SB .f32 0x00000000#32))
        (shapeCast SB g hg)) (broadcastTo SB (shapeCast SR b hr) hb)))) = upd x w g b := by
  funext j
  obtain ⟨p, q, rfl⟩ : ∃ (p : Fin 4000) (q : Fin 128), j = ix2 p q := ⟨j 0, j 1, eq_ix2 j⟩
  rw [matmul_block D hD x w hlt hc, shapeCast_self, shapeCast_self]
  show x (ix2 p q) + Ideal.ofBits .f32 0x3DCCCCCD#32 * Ideal.tanh ((mm x w (ix2 p q) + g (ix2 p q)) + broadcastTo SB b hb (ix2 p q)) = _
  rw [broadcastTo_1b_ab_apply b hb p q]
  rfl

/-! ## The same two functions in a host program's spelling -/

/-- One row of 128 biases given as a vector. -/
abbrev SV : Shape := ⟨1, ![128]⟩

/-- A bias vector broadcast to a one-row matrix and then down all rows reads, at (p, c), the bias at c. -/
theorem rowBias {α : Type} (b : SV.Idx → α) (h1 : SV.BroadcastsInDim SR ![1]) (h2 : SR.BroadcastsInDim SN ![0, 1])
    (p : Fin 100000) (q : Fin 128) :
    broadcastInDim SN ![0, 1] h2 (broadcastInDim SR ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => rfl
  · match a with
    | ⟨0, _⟩ => rfl

/-- The host's product of the node features with a 128 × 128 matrix is `mm`. -/
theorem product_host (D : DotDims SN SW SN) (hD : D = DotDims.plain 100000 128 128)
    (x : FVec Ideal SN .f32) (w : FVec Ideal SW .f32) : Host.dotGeneral D none x w = mm x w :=
  funext fun j => PlainDot.hostDot_apply D hD none x w j

/-- The host's spelling of the update — the product, plus g, plus the bias vector broadcast over the rows, through
    tanh, scaled by the broadcast ε, added to x — is `upd` with the bias as a one-row matrix. -/
theorem update_host (D : DotDims SN SW SN) (hD : D = DotDims.plain 100000 128 128)
    (x : FVec Ideal SN .f32) (w : FVec Ideal SW .f32) (g : FVec Ideal SN .f32) (b : FVec Ideal SV .f32)
    (h0 : (⟨0, ![]⟩ : Shape).BroadcastsInDim SN ![]) (h1 : SV.BroadcastsInDim SR ![1]) (h2 : SR.BroadcastsInDim SN ![0, 1])
    (hc : SV.ShapeCasts SR) :
    addf x (mulf (broadcastInDim SN ![] h0 (constant (F := Ideal) ⟨0, ![]⟩ .f32 0x3DCCCCCD#32))
      (Host.tanh (addf (addf (Host.dotGeneral D none x w) g) (broadcastInDim SN ![0, 1] h2 (broadcastInDim SR ![1] h1 b)))))
      = upd x w g (shapeCast SR b hc) := by
  funext j
  obtain ⟨p, q, rfl⟩ : ∃ (p : Fin 100000) (q : Fin 128), j = ix2 p q := ⟨j 0, j 1, eq_ix2 j⟩
  rw [product_host D hD]
  show x (ix2 p q) + Ideal.ofBits .f32 0x3DCCCCCD#32 * Ideal.tanh ((mm x w (ix2 p q) + g (ix2 p q))
      + broadcastInDim SN ![0, 1] h2 (broadcastInDim SR ![1] h1 b) (ix2 p q))
    = x (ix2 p q) + eps * Ideal.tanh ((mm x w (ix2 p q) + g (ix2 p q)) + shapeCast SR b hc (ix2 (0 : Fin 1) q))
  rw [rowBias b h1 h2 p q, shapeCast_a_1a_apply b hc (0 : Fin 1) q]
  rfl

end Cert.Layer

end
-- ==== Proof.Product0.lean ====
/-
  The projection x·Wφᵀ of one graph-convolution layer, read off the pipelined run of its kernel (call 0 of the program).

  The kernel visits 25 grid points; point t stages rows 4000·t … 4000·t + 3999 of the node features (all 128
  columns), the whole 128 × 128 weight matrix, and writes back the same rows of the result. Entry (p, c) of the
  block it writes is the 128-term product of row p of the staged rows with column c of the weights, so the block
  is the restriction of the one whole-array product `mm`; the 25 row blocks cover all 100000 rows, hence the
  result array after the run IS `mm` of the two arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin0 : (![0, 0] : Fin 2 → Nat) = fun _ => 0 := funext fun a => by fin_cases a <;> rfl

/-- The body's one stored value is the product of its two loaded blocks. -/
theorem payload0 (x : Vec Ideal S4000x128 .f32) (w : Vec Ideal S128x128 .bf16) : k0_pay1 (F := Ideal) x w = mm x w := by
  unfold k0_pay1
  exact matmul_block _ rfl x w _ _

/-- The index maps over the grid: the feature rows and the result rows move together, one block per point; the
    weights stay at block (0, 0). -/
theorem maps0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem onto0 : ∀ q : Fin 25, ∃ t : Fin cfg0.N, win0_2.index t = ![q.val, 0] :=
  (by decide +kernel : ∀ q : Fin 25, ∃ t : Fin grid0.N, win0_2.index t = ![q.val, 0])

set_option maxHeartbeats 4000000 in
/-- What point t writes back is block t of the whole-array product. -/
theorem flushed0 (c : Dev nD) (t : Fin cfg0.N) :
    (dat0 V c).flushed 2 t = ((cfg0.win 2).blk t).view.read (Elt Ideal)
      (mm (V c (Pipeline.arrRef spec0 0)) (V c (Pipeline.arrRef spec0 1))) := by
  show (cfg0.win 2).cut (grid0.coords t) ((dat0 V c).after 2 t) = _
  rw [after0_2]
  unfold out0_2
  rw [View.canon_unit_zero origin0]
  simp only [View.ld_unit_zero (S := S4000x128) origin0, View.ld_unit_zero (S := S128x128) origin0]
  rw [payload0]
  obtain ⟨e0, e1, e2, e3, e4, e5⟩ := maps0 t
  funext j
  show mm (iblk0 V c 0 t) (iblk0 V c 1 t) j
    = mm (V c (Pipeline.arrRef spec0 0)) (V c (Pipeline.arrRef spec0 1)) (((cfg0.win 2).blk t).view.emb j)
  unfold mm
  refine Finset.sum_congr rfl fun k _ => ?_
  have hx : iblk0 V c 0 t (ix2 (j 0) k)
      = V c (Pipeline.arrRef spec0 0) (ix2 ((((cfg0.win 2).blk t).view.emb j) 0) k) := by
    show V c (Pipeline.arrRef spec0 0) (((cfg0.win 0).blk t).view.emb (ix2 (j 0) k)) = _
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have hw : iblk0 V c 1 t (ix2 k (j 1))
      = V c (Pipeline.arrRef spec0 1) (ix2 k ((((cfg0.win 2).blk t).view.emb j) 1)) := by
    show V c (Pipeline.arrRef spec0 1) (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the result array is in point t's block iff each coordinate is in the block's range. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole (Pipeline.arrRef spec0 2)).slice (win0_2.rect t)).set ↔ _
  rw [View.set_slice_whole, Rect.mem_set_unit]
  exact Iff.rfl

/-- The 25 row blocks cover the result array: row r lies in block r / 4000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The result array after the call: the product of the two arrays the call found. -/
theorem product0 (c : Dev nD) :
    (dat0 V c).arrAt 2 cfg0.N = mm (V c (Pipeline.arrRef spec0 0)) (V c (Pipeline.arrRef spec0 1)) :=
  (dat0 V c).arrAt_eq_of_cover 2 _ (fun t _ => flushed0 V c t) (cover0)

end Cert.KernelIdeal.Blocks

end
-- ==== Proof.Product2.lean ====
/-
  The projection x·Wφᵀ of one graph-convolution layer, read off the pipelined run of its kernel (call 2 of the program).

  The kernel visits 25 grid points; point t stages rows 4000·t … 4000·t + 3999 of the node features (all 128
  columns), the whole 128 × 128 weight matrix, and writes back the same rows of the result. Entry (p, c) of the
  block it writes is the 128-term product of row p of the staged rows with column c of the weights, so the block
  is the restriction of the one whole-array product `mm`; the 25 row blocks cover all 100000 rows, hence the
  result array after the run IS `mm` of the two arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin2 : (![0, 0] : Fin 2 → Nat) = fun _ => 0 := funext fun a => by fin_cases a <;> rfl

/-- The body's one stored value is the product of its two loaded blocks. -/
theorem payload2 (x : Vec Ideal S4000x128 .f32) (w : Vec Ideal S128x128 .bf16) : k2_pay1 (F := Ideal) x w = mm x w := by
  unfold k2_pay1
  rw [shapeCast_self x]
  exact matmul_block _ rfl x w _ _

/-- The index maps over the grid: the feature rows and the result rows move together, one block per point; the
    weights stay at block (0, 0). -/
theorem maps2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row block is some point's. -/
theorem onto2 : ∀ q : Fin 25, ∃ t : Fin cfg2.N, win2_2.index t = ![q.val, 0] :=
  (by decide +kernel : ∀ q : Fin 25, ∃ t : Fin grid2.N, win2_2.index t = ![q.val, 0])

set_option maxHeartbeats 4000000 in
/-- What point t writes back is block t of the whole-array product. -/
theorem flushed2 (c : Dev nD) (t : Fin cfg2.N) :
    (dat2 V c).flushed 2 t = ((cfg2.win 2).blk t).view.read (Elt Ideal)
      (mm (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S4000x128) origin2, View.ld_unit_zero (S := S128x128) origin2]
  rw [payload2]
  obtain ⟨e0, e1, e2, e3, e4, e5⟩ := maps2 t
  funext j
  show mm (iblk2 V c 0 t) (iblk2 V c 1 t) j
    = mm (V c (Pipeline.arrRef spec2 0)) (V c (Pipeline.arrRef spec2 1)) (((cfg2.win 2).blk t).view.emb j)
  unfold mm
  refine Finset.sum_congr rfl fun k _ => ?_
  have hx : iblk2 V c 0 t (ix2 (j 0) k)
      = V c (Pipeline.arrRef spec2 0) (ix2 ((((cfg2.win 2).blk t).view.emb j) 0) k) := by
    show V c (Pipeline.arrRef spec2 0) (((cfg2.win 0).blk t).view.emb (ix2 (j 0) k)) = _
    refine congrArg _ (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  have hw : iblk2 V c 1 t (ix2 k (j 1))
      = V c (Pipeline.arrRef spec2 1) (ix2 k ((((cfg2.win 2).blk t).view.emb j) 1)) := by
    show V c (Pipeline.arrRef spec2 1) (((cfg2.win 1).blk t).view.emb (ix2 k (j 1))) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the result array is in point t's block iff each coordinate is in the block's range. -/
theorem mem_block2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole (Pipeline.arrRef spec2 2)).slice (win2_2.rect t)).set ↔ _
  rw [View.set_slice_whole, Rect.mem_set_unit]
  exact Iff.rfl

/-- The 25 row blocks cover the result array: row r lies in block r / 4000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The result array after the call: the product of the two arrays the call found. -/
theorem product2 (c : Dev nD) :
    (dat2 V c).arrAt 2 cfg2.N = mm (V c (Pipeline.arrRef spec2 0)) (V c (Pipeline.arrRef spec2 1)) :=
  (dat2 V c).arrAt_eq_of_cover 2 _ (fun t _ => flushed2 V c t) (cover2)

end Cert.KernelIdeal.Blocks

end
-- ==== Proof.Product4.lean ====
/-
  The projection x·Wφᵀ of one graph-convolution layer, read off the pipelined run of its kernel (call 4 of the program).

  The kernel visits 25 grid points; point t stages rows 4000·t … 4000·t + 3999 of the node features (all 128
  columns), the whole 128 × 128 weight matrix, and writes back the same rows of the result. Entry (p, c) of the
  block it writes is the 128-term product of row p of the staged rows with column c of the weights, so the block
  is the restriction of the one whole-array product `mm`; the 25 row blocks cover all 100000 rows, hence the
  result array after the run IS `mm` of the two arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin4 : (![0, 0] : Fin 2 → Nat) = fun _ => 0 := funext fun a => by fin_cases a <;> rfl

/-- The body's one stored value is the product of its two loaded blocks. -/
theorem payload4 (x : Vec Ideal S4000x128 .f32) (w : Vec Ideal S128x128 .bf16) : k4_pay1 (F := Ideal) x w = mm x w := by
  unfold k4_pay1
  rw [shapeCast_self x]
  exact matmul_block _ rfl x w _ _

/-- The index maps over the grid: the feature rows and the result rows move together, one block per point; the
    weights stay at block (0, 0). -/
theorem maps4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 24 :=
  (by decide +kernel : ∀ t : Fin grid4.N, _)

/-- Every row block is some point's. -/
theorem onto4 : ∀ q : Fin 25, ∃ t : Fin cfg4.N, win4_2.index t = ![q.val, 0] :=
  (by decide +kernel : ∀ q : Fin 25, ∃ t : Fin grid4.N, win4_2.index t = ![q.val, 0])

set_option maxHeartbeats 4000000 in
/-- What point t writes back is block t of the whole-array product. -/
theorem flushed4 (c : Dev nD) (t : Fin cfg4.N) :
    (dat4 V c).flushed 2 t = ((cfg4.win 2).blk t).view.read (Elt Ideal)
      (mm (V c (Pipeline.arrRef spec4 0)) (V c (Pipeline.arrRef spec4 1))) := by
  show (cfg4.win 2).cut (grid4.coords t) ((dat4 V c).after 2 t) = _
  rw [after4_2]
  unfold out4_2
  rw [View.canon_unit_zero origin4]
  simp only [View.ld_unit_zero (S := S4000x128) origin4, View.ld_unit_zero (S := S128x128) origin4]
  rw [payload4]
  obtain ⟨e0, e1, e2, e3, e4, e5⟩ := maps4 t
  funext j
  show mm (iblk4 V c 0 t) (iblk4 V c 1 t) j
    = mm (V c (Pipeline.arrRef spec4 0)) (V c (Pipeline.arrRef spec4 1)) (((cfg4.win 2).blk t).view.emb j)
  unfold mm
  refine Finset.sum_congr rfl fun k _ => ?_
  have hx : iblk4 V c 0 t (ix2 (j 0) k)
      = V c (Pipeline.arrRef spec4 0) (ix2 ((((cfg4.win 2).blk t).view.emb j) 0) k) := by
    show V c (Pipeline.arrRef spec4 0) (((cfg4.win 0).blk t).view.emb (ix2 (j 0) k)) = _
    refine congrArg _ (funext fun a => Fin.ext ?_)
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 128 + 1 * k.val = k.val; omega
  have hw : iblk4 V c 1 t (ix2 k (j 1))
      = V c (Pipeline.arrRef spec4 1) (ix2 k ((((cfg4.win 2).blk t).view.emb j) 1)) := by
    show V c (Pipeline.arrRef spec4 1) (((cfg4.win 1).blk t).view.emb (ix2 k (j 1))) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hx, hw]

/-- An index of the result array is in point t's block iff each coordinate is in the block's range. -/
theorem mem_block4 (t : Fin cfg4.N) (i : S100000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole (Pipeline.arrRef spec4 2)).slice (win4_2.rect t)).set ↔ _
  rw [View.set_slice_whole, Rect.mem_set_unit]
  exact Iff.rfl

/-- The 25 row blocks cover the result array: row r lies in block r / 4000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := onto4 ⟨(i 0).val / 4000, by omega⟩
  have q0 : win4_2.index t (0 : Fin 2) = (i 0).val / 4000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- The result array after the call: the product of the two arrays the call found. -/
theorem product4 (c : Dev nD) :
    (dat4 V c).arrAt 2 cfg4.N = mm (V c (Pipeline.arrRef spec4 0)) (V c (Pipeline.arrRef spec4 1)) :=
  (dat4 V c).arrAt_eq_of_cover 2 _ (fun t _ => flushed4 V c t) (cover4)

end Cert.KernelIdeal.Blocks

end
-- ==== Proof.Product6.lean ====
/-
  The projection x·Wφᵀ of one graph-convolution layer, read off the pipelined run of its kernel (call 6 of the program).

  The kernel visits 25 grid points; point t stages rows 4000·t … 4000·t + 3999 of the node features (all 128
  columns), the whole 128 × 128 weight matrix, and writes back the same rows of the result. Entry (p, c) of the
  block it writes is the 128-term product of row p of the staged rows with column c of the weights, so the block
  is the restriction of the one whole-array product `mm`; the 25 row blocks cover all 100000 rows, hence the
  result array after the run IS `mm` of the two arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin6 : (![0, 0] : Fin 2 → Nat) = fun _ => 0 := funext fun a => by fin_cases a <;> rfl

/-- The body's one stored value is the product of its two loaded blocks. -/
theorem payload6 (x : Vec Ideal S4000x128 .f32) (w : Vec Ideal S128x128 .bf16) : k6_pay1 (F := Ideal) x w = mm x w := by
  unfold k6_pay1
  rw [shapeCast_self x]
  exact matmul_block _ rfl x w _ _

/-- The index maps over the grid: the feature rows and the result rows move together, one block per point; the
    weights stay at block (0, 0). -/
theorem maps6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 24 :=
  (by decide +kernel : ∀ t : Fin grid6.N, _)

/-- Every row block is some point's. -/
theorem onto6 : ∀ q : Fin 25, ∃ t : Fin cfg6.N, win6_2.index t = ![q.val, 0] :=
  (by decide +kernel : ∀ q : Fin 25, ∃ t : Fin grid6.N, win6_2.index t = ![q.val, 0])

set_option maxHeartbeats 4000000 in
/-- What point t writes back is block t of the whole-array product. -/
theorem flushed6 (c : Dev nD) (t : Fin cfg6.N) :
    (dat6 V c).flushed 2 t = ((cfg6.win 2).blk t).view.read (Elt Ideal)
      (mm (V c (Pipeline.arrRef spec6 0)) (V c (Pipeline.arrRef spec6 1))) := by
  show (cfg6.win 2).cut (grid6.coords t) ((dat6 V c).after 2 t) = _
  rw [after6_2]
  unfold out6_2
  rw [View.canon_unit_zero origin6]
  simp only [View.ld_unit_zero (S := S4000x128) origin6, View.ld_unit_zero (S := S128x128) origin6]
  rw [payload6]
  obtain ⟨e0, e1, e2, e3, e4, e5⟩ := maps6 t
  funext j
  show mm (iblk6 V c 0 t) (iblk6 V c 1 t) j
    = mm (V c (Pipeline.arrRef spec6 0)) (V c (Pipeline.arrRef spec6 1)) (((cfg6.win 2).blk t).view.emb j)
  unfold mm
  refine Finset.sum_congr rfl fun k _ => ?_
  have hx : iblk6 V c 0 t (ix2 (j 0) k)
      = V c (Pipeline.arrRef spec6 0) (ix2 ((((cfg6.win 2).blk t).view.emb j) 0) k) := by
    show V c (Pipeline.arrRef spec6 0) (((cfg6.win 0).blk t).view.emb (ix2 (j 0) k)) = _
    refine congrArg _ (funext fun a => Fin.ext ?_)
    match a with
    | ⟨0, _⟩ => show win6_0.index t (0 : Fin 2) * 4000 + 1 * (j 0).val = win6_2.index t (0 : Fin 2) * 4000 + 1 * (j 0).val; omega
    | ⟨1, _⟩ => show win6_0.index t (1 : Fin 2) * 128 + 1 * k.val = k.val; omega
  have hw : iblk6 V c 1 t (ix2 k (j 1))
      = V c (Pipeline.arrRef spec6 1) (ix2 k ((((cfg6.win 2).blk t).view.emb j) 1)) := by
    show V c (Pipeline.arrRef spec6 1) (((cfg6.win 1).blk t).view.emb (ix2 k (j 1))) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  rw [hx, hw]

/-- An index of the result array is in point t's block iff each coordinate is in the block's range. -/
theorem mem_block6 (t : Fin cfg6.N) (i : S100000x128.Idx) :
    i ∈ ((cfg6.win 2).blk t).view.set ↔ ∀ a : Fin 2, win6_2.index t a * S4000x128.size a ≤ (i a).val
      ∧ (i a).val < win6_2.index t a * S4000x128.size a + S4000x128.size a := by
  show i ∈ ((View.whole (Pipeline.arrRef spec6 2)).slice (win6_2.rect t)).set ↔ _
  rw [View.set_slice_whole, Rect.mem_set_unit]
  exact Iff.rfl

/-- The 25 row blocks cover the result array: row r lies in block r / 4000. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := onto6 ⟨(i 0).val / 4000, by omega⟩
  have q0 : win6_2.index t (0 : Fin 2) = (i 0).val / 4000 := congrFun ht 0
  have q1 : win6_2.index t (1 : Fin 2) = 0 := congrFun ht 1
  refine ⟨t, flush6_2 t, ?_⟩
  rw [mem_block6]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 128 ≤ (i 1).val ∧ (i 1).val < win6_2.index t (1 : Fin 2) * 128 + 128; omega

/-- The result array after the call: the product of the two arrays the call found. -/
theorem product6 (c : Dev nD) :
    (dat6 V c).arrAt 2 cfg6.N = mm (V c (Pipeline.arrRef spec6 0)) (V c (Pipeline.arrRef spec6 1)) :=
  (dat6 V c).arrAt_eq_of_cover 2 _ (fun t _ => flushed6 V c t) (cover6)

end Cert.KernelIdeal.Blocks

end
-- ==== Proof.Update1.lean ====
/-
  The update x + ε · tanh (x·Aᵀ + g + b) of one layer, read off the pipelined run of its kernel (call 1 of the program).

  The kernel visits 25 grid points; point t stages rows 4000·t … 4000·t + 3999 of the node features x and of the
  aggregated term g (all 128 columns), the whole 128 × 128 matrix and the one row of biases, and writes back the
  same rows of the result. Entry (p, c) of the written block depends on row p of the staged features, column c
  of the matrix, entry (p, c) of the staged g and the bias at c: the block is the restriction of the whole-array
  update `upd`; the 25 row blocks cover all 100000 rows, so the result array after the run IS `upd` of the four
  arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin1 : (![0, 0] : Fin 2 → Nat) = fun _ => 0 := funext fun a => by fin_cases a <;> rfl

/-- The body's one stored value is the update of its four loaded blocks. -/
theorem payload1 (x : Vec Ideal S4000x128 .f32) (w : Vec Ideal S128x128 .bf16) (g : Vec Ideal S4000x128 .f32)
    (b : Vec Ideal S1x128 .f32) : k1_pay1 (F := Ideal) x w g b = upd x w g b := by
  unfold k1_pay1
  exact update_block _ rfl x w g b _ _ _ _ _

/-- The index maps over the grid: the feature rows, the rows of g and the result rows move together, one block per
    point; the matrix and the bias row stay at block (0, 0). -/
theorem maps1 : ∀ t : Fin cfg1.N, win1_0.index t (0 : Fin 2) = win1_4.index t (0 : Fin 2)
    ∧ win1_0.index t (1 : Fin 2) = 0 ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every row block is some point's. -/
theorem onto1 : ∀ q : Fin 25, ∃ t : Fin cfg1.N, win1_4.index t = ![q.val, 0] :=
  (by decide +kernel : ∀ q : Fin 25, ∃ t : Fin grid1.N, win1_4.index t = ![q.val, 0])

set_option maxHeartbeats 4000000 in
/-- What point t writes back is block t of the whole-array update. -/
theorem flushed1 (c : Dev nD) (t : Fin cfg1.N) :
    (dat1 V c).flushed 4 t = ((cfg1.win 4).blk t).view.read (Elt Ideal)
      (upd (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero origin1]
  simp only [View.ld_unit_zero (S := S4000x128) origin1, View.ld_unit_zero (S := S128x128) origin1,
    View.ld_unit_zero (S := S1x128) origin1]
  rw [payload1]
  obtain ⟨e0, e1, e2, e3, e4, e5, e6, e7, e8, e9⟩ := maps1 t
  funext j
  show upd (iblk1 V c 0 t) (iblk1 V c 1 t) (iblk1 V c 2 t) (iblk1 V c 3 t) j
    = upd (V c (Pipeline.arrRef spec1 0)) (V c (Pipeline.arrRef spec1 1)) (V c (Pipeline.arrRef spec1 2))
        (V c (Pipeline.arrRef spec1 3)) (((cfg1.win 4).blk t).view.emb j)
  have hx : ∀ k : Fin 128, iblk1 V c 0 t (ix2 (j 0) k)
      = V c (Pipeline.arrRef spec1 0) (ix2 ((((cfg1.win 4).blk t).view.emb j) 0) k) := fun k => by
    show V c (Pipeline.arrRef spec1 0) (((cfg1.win 0).blk t).view.emb (ix2 (j 0) k)) = _
    refine congrArg _ (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  have hw : ∀ k : Fin 128, iblk1 V c 1 t (ix2 k (j 1))
      = V c (Pipeline.arrRef spec1 1) (ix2 k ((((cfg1.win 4).blk t).view.emb j) 1)) := fun k => by
    show V c (Pipeline.arrRef spec1 1) (((cfg1.win 1).blk t).view.emb (ix2 k (j 1))) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_4.index t (1 : Fin 2) * 128 + 1 * (j 1).val; omega
  have hx0 : iblk1 V c 0 t j = V c (Pipeline.arrRef spec1 0) (((cfg1.win 4).blk t).view.emb j) := by
    show V c (Pipeline.arrRef spec1 0) (((cfg1.win 0).blk t).view.emb j) = _
    refine congrArg _ (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * (j 1).val = win1_4.index t (1 : Fin 2) * 128 + 1 * (j 1).val; omega
  have hg : iblk1 V c 2 t j = V c (Pipeline.arrRef spec1 2) (((cfg1.win 4).blk t).view.emb j) := by
    show V c (Pipeline.arrRef spec1 2) (((cfg1.win 2).blk t).view.emb j) = _
    refine congrArg _ (funext fun a => Fin.ext ?_)
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 128 + 1 * (j 1).val = win1_4.index t (1 : Fin 2) * 128 + 1 * (j 1).val; omega
  have hb : iblk1 V c 3 t (ix2 (0 : Fin 1) (j 1))
      = V c (Pipeline.arrRef spec1 3) (ix2 (0 : Fin 1) ((((cfg1.win 4).blk t).view.emb j) 1)) := by
    show V c (Pipeline.arrRef spec1 3) (((cfg1.win 3).blk t).view.emb (ix2 (0 : Fin 1) (j 1))) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  unfold upd mm
  rw [hx0, hg, hb]
  simp only [hx, hw]

/-- An index of the result array is in point t's block iff each coordinate is in the block's range. -/
theorem mem_block1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole (Pipeline.arrRef spec1 4)).slice (win1_4.rect t)).set ↔ _
  rw [View.set_slice_whole, Rect.mem_set_unit]
  exact Iff.rfl

/-- The 25 row blocks cover the result array: row r lies in block r / 4000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_block1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The result array after the call: the update of the four arrays the call found. -/
theorem update1 (c : Dev nD) :
    (dat1 V c).arrAt 4 cfg1.N = upd (V c (Pipeline.arrRef spec1 0)) (V c (Pipeline.arrRef spec1 1))
      (V c (Pipeline.arrRef spec1 2)) (V c (Pipeline.arrRef spec1 3)) :=
  (dat1 V c).arrAt_eq_of_cover 4 _ (fun t _ => flushed1 V c t) (cover1)

end Cert.KernelIdeal.Blocks

end
-- ==== Proof.Update3.lean ====
/-
  The update x + ε · tanh (x·Aᵀ + g + b) of one layer, read off the pipelined run of its kernel (call 3 of the program).

  The kernel visits 25 grid points; point t stages rows 4000·t … 4000·t + 3999 of the node features x and of the
  aggregated term g (all 128 columns), the whole 128 × 128 matrix and the one row of biases, and writes back the
  same rows of the result. Entry (p, c) of the written block depends on row p of the staged features, column c
  of the matrix, entry (p, c) of the staged g and the bias at c: the block is the restriction of the whole-array
  update `upd`; the 25 row blocks cover all 100000 rows, so the result array after the run IS `upd` of the four
  arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin3 : (![0, 0] : Fin 2 → Nat) = fun _ => 0 := funext fun a => by fin_cases a <;> rfl

/-- The body's one stored value is the update of its four loaded blocks. -/
theorem payload3 (x : Vec Ideal S4000x128 .f32) (w : Vec Ideal S128x128 .bf16) (g : Vec Ideal S4000x128 .f32)
    (b : Vec Ideal S1x128 .f32) : k3_pay1 (F := Ideal) x w g b = upd x w g b := by
  unfold k3_pay1
  rw [shapeCast_self x]
  exact update_block _ rfl x w g b _ _ _ _ _

/-- The index maps over the grid: the feature rows, the rows of g and the result rows move together, one block per
    point; the matrix and the bias row stay at block (0, 0). -/
theorem maps3 : ∀ t : Fin cfg3.N, win3_0.index t (0 : Fin 2) = win3_4.index t (0 : Fin 2)
    ∧ win3_0.index t (1 : Fin 2) = 0 ∧ win3_1.index t (0 : Fin 2) = 0 ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 24 :=
  (by decide +kernel : ∀ t : Fin grid3.N, _)

/-- Every row block is some point's. -/
theorem onto3 : ∀ q : Fin 25, ∃ t : Fin cfg3.N, win3_4.index t = ![q.val, 0] :=
  (by decide +kernel : ∀ q : Fin 25, ∃ t : Fin grid3.N, win3_4.index t = ![q.val, 0])

set_option maxHeartbeats 4000000 in
/-- What point t writes back is block t of the whole-array update. -/
theorem flushed3 (c : Dev nD) (t : Fin cfg3.N) :
    (dat3 V c).flushed 4 t = ((cfg3.win 4).blk t).view.read (Elt Ideal)
      (upd (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4]
  unfold out3_4
  rw [View.canon_unit_zero origin3]
  simp only [View.ld_unit_zero (S := S4000x128) origin3, View.ld_unit_zero (S := S128x128) origin3,
    View.ld_unit_zero (S := S1x128) origin3]
  rw [payload3]
  obtain ⟨e0, e1, e2, e3, e4, e5, e6, e7, e8, e9⟩ := maps3 t
  funext j
  show upd (iblk3 V c 0 t) (iblk3 V c 1 t) (iblk3 V c 2 t) (iblk3 V c 3 t) j
    = upd (V c (Pipeline.arrRef spec3 0)) (V c (Pipeline.arrRef spec3 1)) (V c (Pipeline.arrRef spec3 2))
        (V c (Pipeline.arrRef spec3 3)) (((cfg3.win 4).blk t).view.emb j)
  have hx : ∀ k : Fin 128, iblk3 V c 0 t (ix2 (j 0) k)
      = V c (Pipeline.arrRef spec3 0) (ix2 ((((cfg3.win 4).blk t).view.emb j) 0) k) := fun k => by
    show V c (Pipeline.arrRef spec3 0) (((cfg3.win 0).blk t).view.emb (ix2 (j 0) k)) = _
    refine congrArg _ (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * k.val = k.val; omega
  have hw : ∀ k : Fin 128, iblk3 V c 1 t (ix2 k (j 1))
      = V c (Pipeline.arrRef spec3 1) (ix2 k ((((cfg3.win 4).blk t).view.emb j) 1)) := fun k => by
    show V c (Pipeline.arrRef spec3 1) (((cfg3.win 1).blk t).view.emb (ix2 k (j 1))) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_4.index t (1 : Fin 2) * 128 + 1 * (j 1).val; omega
  have hx0 : iblk3 V c 0 t j = V c (Pipeline.arrRef spec3 0) (((cfg3.win 4).blk t).view.emb j) := by
    show V c (Pipeline.arrRef spec3 0) (((cfg3.win 0).blk t).view.emb j) = _
    refine congrArg _ (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * (j 1).val = win3_4.index t (1 : Fin 2) * 128 + 1 * (j 1).val; omega
  have hg : iblk3 V c 2 t j = V c (Pipeline.arrRef spec3 2) (((cfg3.win 4).blk t).view.emb j) := by
    show V c (Pipeline.arrRef spec3 2) (((cfg3.win 2).blk t).view.emb j) = _
    refine congrArg _ (funext fun a => Fin.ext ?_)
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 128 + 1 * (j 1).val = win3_4.index t (1 : Fin 2) * 128 + 1 * (j 1).val; omega
  have hb : iblk3 V c 3 t (ix2 (0 : Fin 1) (j 1))
      = V c (Pipeline.arrRef spec3 3) (ix2 (0 : Fin 1) ((((cfg3.win 4).blk t).view.emb j) 1)) := by
    show V c (Pipeline.arrRef spec3 3) (((cfg3.win 3).blk t).view.emb (ix2 (0 : Fin 1) (j 1))) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  unfold upd mm
  rw [hx0, hg, hb]
  simp only [hx, hw]

/-- An index of the result array is in point t's block iff each coordinate is in the block's range. -/
theorem mem_block3 (t : Fin cfg3.N) (i : S100000x128.Idx) :
    i ∈ ((cfg3.win 4).blk t).view.set ↔ ∀ a : Fin 2, win3_4.index t a * S4000x128.size a ≤ (i a).val
      ∧ (i a).val < win3_4.index t a * S4000x128.size a + S4000x128.size a := by
  show i ∈ ((View.whole (Pipeline.arrRef spec3 4)).slice (win3_4.rect t)).set ↔ _
  rw [View.set_slice_whole, Rect.mem_set_unit]
  exact Iff.rfl

/-- The 25 row blocks cover the result array: row r lies in block r / 4000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := onto3 ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_block3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- The result array after the call: the update of the four arrays the call found. -/
theorem update3 (c : Dev nD) :
    (dat3 V c).arrAt 4 cfg3.N = upd (V c (Pipeline.arrRef spec3 0)) (V c (Pipeline.arrRef spec3 1))
      (V c (Pipeline.arrRef spec3 2)) (V c (Pipeline.arrRef spec3 3)) :=
  (dat3 V c).arrAt_eq_of_cover 4 _ (fun t _ => flushed3 V c t) (cover3)

end Cert.KernelIdeal.Blocks

end
-- ==== Proof.Update5.lean ====
/-
  The update x + ε · tanh (x·Aᵀ + g + b) of one layer, read off the pipelined run of its kernel (call 5 of the program).

  The kernel visits 25 grid points; point t stages rows 4000·t … 4000·t + 3999 of the node features x and of the
  aggregated term g (all 128 columns), the whole 128 × 128 matrix and the one row of biases, and writes back the
  same rows of the result. Entry (p, c) of the written block depends on row p of the staged features, column c
  of the matrix, entry (p, c) of the staged g and the bias at c: the block is the restriction of the whole-array
  update `upd`; the 25 row blocks cover all 100000 rows, so the result array after the run IS `upd` of the four
  arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin5 : (![0, 0] : Fin 2 → Nat) = fun _ => 0 := funext fun a => by fin_cases a <;> rfl

/-- The body's one stored value is the update of its four loaded blocks. -/
theorem payload5 (x : Vec Ideal S4000x128 .f32) (w : Vec Ideal S128x128 .bf16) (g : Vec Ideal S4000x128 .f32)
    (b : Vec Ideal S1x128 .f32) : k5_pay1 (F := Ideal) x w g b = upd x w g b := by
  unfold k5_pay1
  rw [shapeCast_self x]
  exact update_block _ rfl x w g b _ _ _ _ _

/-- The index maps over the grid: the feature rows, the rows of g and the result rows move together, one block per
    point; the matrix and the bias row stay at block (0, 0). -/
theorem maps5 : ∀ t : Fin cfg5.N, win5_0.index t (0 : Fin 2) = win5_4.index t (0 : Fin 2)
    ∧ win5_0.index t (1 : Fin 2) = 0 ∧ win5_1.index t (0 : Fin 2) = 0 ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 24 :=
  (by decide +kernel : ∀ t : Fin grid5.N, _)

/-- Every row block is some point's. -/
theorem onto5 : ∀ q : Fin 25, ∃ t : Fin cfg5.N, win5_4.index t = ![q.val, 0] :=
  (by decide +kernel : ∀ q : Fin 25, ∃ t : Fin grid5.N, win5_4.index t = ![q.val, 0])

set_option maxHeartbeats 4000000 in
/-- What point t writes back is block t of the whole-array update. -/
theorem flushed5 (c : Dev nD) (t : Fin cfg5.N) :
    (dat5 V c).flushed 4 t = ((cfg5.win 4).blk t).view.read (Elt Ideal)
      (upd (V c (Pipeline.arrRef spec5 0)) (V c (Pipeline.arrRef spec5 1)) (V c (Pipeline.arrRef spec5 2))
        (V c (Pipeline.arrRef spec5 3))) := by
  show (cfg5.win 4).cut (grid5.coords t) ((dat5 V c).after 4 t) = _
  rw [after5_4]
  unfold out5_4
  rw [View.canon_unit_zero origin5]
  simp only [View.ld_unit_zero (S := S4000x128) origin5, View.ld_unit_zero (S := S128x128) origin5,
    View.ld_unit_zero (S := S1x128) origin5]
  rw [payload5]
  obtain ⟨e0, e1, e2, e3, e4, e5, e6, e7, e8, e9⟩ := maps5 t
  funext j
  show upd (iblk5 V c 0 t) (iblk5 V c 1 t) (iblk5 V c 2 t) (iblk5 V c 3 t) j
    = upd (V c (Pipeline.arrRef spec5 0)) (V c (Pipeline.arrRef spec5 1)) (V c (Pipeline.arrRef spec5 2))
        (V c (Pipeline.arrRef spec5 3)) (((cfg5.win 4).blk t).view.emb j)
  have hx : ∀ k : Fin 128, iblk5 V c 0 t (ix2 (j 0) k)
      = V c (Pipeline.arrRef spec5 0) (ix2 ((((cfg5.win 4).blk t).view.emb j) 0) k) := fun k => by
    show V c (Pipeline.arrRef spec5 0) (((cfg5.win 0).blk t).view.emb (ix2 (j 0) k)) = _
    refine congrArg _ (funext fun a => Fin.ext ?_)
    match a with
    | ⟨0, _⟩ => show win5_0.index t (0 : Fin 2) * 4000 + 1 * (j 0).val = win5_4.index t (0 : Fin 2) * 4000 + 1 * (j 0).val; omega
    | ⟨1, _⟩ => show win5_0.index t (1 : Fin 2) * 128 + 1 * k.val = k.val; omega
  have hw : ∀ k : Fin 128, iblk5 V c 1 t (ix2 k (j 1))
      = V c (Pipeline.arrRef spec5 1) (ix2 k ((((cfg5.win 4).blk t).view.emb j) 1)) := fun k => by
    show V c (Pipeline.arrRef spec5 1) (((cfg5.win 1).blk t).view.emb (ix2 k (j 1))) = _
    refine congrArg _ (funext fun a => Fin.ext ?_)
    match a with
    | ⟨0, _⟩ => show win5_1.index t (0 : Fin 2) * 128 + 1 * k.val = k.val; omega
    | ⟨1, _⟩ => show win5_1.index t (1 : Fin 2) * 128 + 1 * (j 1).val = win5_4.index t (1 : Fin 2) * 128 + 1 * (j 1).val; omega
  have hx0 : iblk5 V c 0 t j = V c (Pipeline.arrRef spec5 0) (((cfg5.win 4).blk t).view.emb j) := by
    show V c (Pipeline.arrRef spec5 0) (((cfg5.win 0).blk t).view.emb j) = _
    refine congrArg _ (funext fun a => Fin.ext ?_)
    match a with
    | ⟨0, _⟩ => show win5_0.index t (0 : Fin 2) * 4000 + 1 * (j 0).val = win5_4.index t (0 : Fin 2) * 4000 + 1 * (j 0).val; omega
    | ⟨1, _⟩ => show win5_0.index t (1 : Fin 2) * 128 + 1 * (j 1).val = win5_4.index t (1 : Fin 2) * 128 + 1 * (j 1).val; omega
  have hg : iblk5 V c 2 t j = V c (Pipeline.arrRef spec5 2) (((cfg5.win 4).blk t).view.emb j) := by
    show V c (Pipeline.arrRef spec5 2) (((cfg5.win 2).blk t).view.emb j) = _
    refine congrArg _ (funext fun a => Fin.ext ?_)
    match a with
    | ⟨0, _⟩ => show win5_2.index t (0 : Fin 2) * 4000 + 1 * (j 0).val = win5_4.index t (0 : Fin 2) * 4000 + 1 * (j 0).val; omega
    | ⟨1, _⟩ => show win5_2.index t (1 : Fin 2) * 128 + 1 * (j 1).val = win5_4.index t (1 : Fin 2) * 128 + 1 * (j 1).val; omega
  have hb : iblk5 V c 3 t (ix2 (0 : Fin 1) (j 1))
      = V c (Pipeline.arrRef spec5 3) (ix2 (0 : Fin 1) ((((cfg5.win 4).blk t).view.emb j) 1)) := by
    show V c (Pipeline.arrRef spec5 3) (((cfg5.win 3).blk t).view.emb (ix2 (0 : Fin 1) (j 1))) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  unfold upd mm
  rw [hx0, hg, hb]
  simp only [hx, hw]

/-- An index of the result array is in point t's block iff each coordinate is in the block's range. -/
theorem mem_block5 (t : Fin cfg5.N) (i : S100000x128.Idx) :
    i ∈ ((cfg5.win 4).blk t).view.set ↔ ∀ a : Fin 2, win5_4.index t a * S4000x128.size a ≤ (i a).val
      ∧ (i a).val < win5_4.index t a * S4000x128.size a + S4000x128.size a := by
  show i ∈ ((View.whole (Pipeline.arrRef spec5 4)).slice (win5_4.rect t)).set ↔ _
  rw [View.set_slice_whole, Rect.mem_set_unit]
  exact Iff.rfl

/-- The 25 row blocks cover the result array: row r lies in block r / 4000. -/
theorem cover5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := onto5 ⟨(i 0).val / 4000, by omega⟩
  have q0 : win5_4.index t (0 : Fin 2) = (i 0).val / 4000 := congrFun ht 0
  have q1 : win5_4.index t (1 : Fin 2) = 0 := congrFun ht 1
  refine ⟨t, flush5_4 t, ?_⟩
  rw [mem_block5]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 128 ≤ (i 1).val ∧ (i 1).val < win5_4.index t (1 : Fin 2) * 128 + 128; omega

/-- The result array after the call: the update of the four arrays the call found. -/
theorem update5 (c : Dev nD) :
    (dat5 V c).arrAt 4 cfg5.N = upd (V c (Pipeline.arrRef spec5 0)) (V c (Pipeline.arrRef spec5 1))
      (V c (Pipeline.arrRef spec5 2)) (V c (Pipeline.arrRef spec5 3)) :=
  (dat5 V c).arrAt_eq_of_cover 4 _ (fun t _ => flushed5 V c t) (cover5)

end Cert.KernelIdeal.Blocks

end
-- ==== Proof.Update7.lean ====
/-
  The update x + ε · tanh (x·Aᵀ + g + b) of one layer, read off the pipelined run of its kernel (call 7 of the program).

  The kernel visits 25 grid points; point t stages rows 4000·t … 4000·t + 3999 of the node features x and of the
  aggregated term g (all 128 columns), the whole 128 × 128 matrix and the one row of biases, and writes back the
  same rows of the result. Entry (p, c) of the written block depends on row p of the staged features, column c
  of the matrix, entry (p, c) of the staged g and the bias at c: the block is the restriction of the whole-array
  update `upd`; the 25 row blocks cover all 100000 rows, so the result array after the run IS `upd` of the four
  arrays the call found.
-/
import proofs.«162889_j14310831030632_1_alg».proof.Proof.Gen.KernelIdeal.Frame
import proofs.«162889_j14310831030632_1_alg».proof.Proof.Layer
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem origin7 : (![0, 0] : Fin 2 → Nat) = fun _ => 0 := funext fun a => by fin_cases a <;> rfl

/-- The body's one stored value is the update of its four loaded blocks. -/
theorem payload7 (x : Vec Ideal S4000x128 .f32) (w : Vec Ideal S128x128 .bf16) (g : Vec Ideal S4000x128 .f32)
    (b : Vec Ideal S1x128 .f32) : k7_pay1 (F := Ideal) x w g b = upd x w g b := by
  unfold k7_pay1
  rw [shapeCast_self x]
  exact update_block _ rfl x w g b _ _ _ _ _

/-- The index maps over the grid: the feature rows, the rows of g and the result rows move together, one block per
    point; the matrix and the bias row stay at block (0, 0). -/
theorem maps7 : ∀ t : Fin cfg7.N, win7_0.index t (0 : Fin 2) = win7_4.index t (0 : Fin 2)
    ∧ win7_0.index t (1 : Fin 2) = 0 ∧ win7_1.index t (0 : Fin 2) = 0 ∧ win7_1.index t (1 : Fin 2) = 0
    ∧ win7_2.index t (0 : Fin 2) = win7_4.index t (0 : Fin 2) ∧ win7_2.index t (1 : Fin 2) = 0
    ∧ win7_3.index t (0 : Fin 2) = 0 ∧ win7_3.index t (1 : Fin 2) = 0
    ∧ win7_4.index t (1 : Fin 2) = 0 ∧ win7_4.index t (0 : Fin 2) ≤ 24 :=
  (by decide +kernel : ∀ t : Fin grid7.N, _)

/-- Every row block is some point's. -/
theorem onto7 : ∀ q : Fin 25, ∃ t : Fin cfg7.N, win7_4.index t = ![q.val, 0] :=
  (by decide +kernel : ∀ q : Fin 25, ∃ t : Fin grid7.N, win7_4.index t = ![q.val, 0])

set_option maxHeartbeats 4000000 in
/-- What point t writes back is block t of the whole-array update. -/
theorem flushed7 (c : Dev nD) (t : Fin cfg7.N) :
    (dat7 V c).flushed 4 t = ((cfg7.win 4).blk t).view.read (Elt Ideal)
      (upd (V c (Pipeline.arrRef spec7 0)) (V c (Pipeline.arrRef spec7 1)) (V c (Pipeline.arrRef spec7 2))
        (V c (Pipeline.arrRef spec7 3))) := by
  show (cfg7.win 4).cut (grid7.coords t) ((dat7 V c).after 4 t) = _
  rw [after7_4]
  unfold out7_4
  rw [View.canon_unit_zero origin7]
  simp only [View.ld_unit_zero (S := S4000x128) origin7, View.ld_unit_zero (S := S128x128) origin7,
    View.ld_unit_zero (S := S1x128) origin7]
  rw [payload7]
  obtain ⟨e0, e1, e2, e3, e4, e5, e6, e7, e8, e9⟩ := maps7 t
  funext j
  show upd (iblk7 V c 0 t) (iblk7 V c 1 t) (iblk7 V c 2 t) (iblk7 V c 3 t) j
    = upd (V c (Pipeline.arrRef spec7 0)) (V c (Pipeline.arrRef spec7 1)) (V c (Pipeline.arrRef spec7 2))
        (V c (Pipeline.arrRef spec7 3)) (((cfg7.win 4).blk t).view.emb j)
  have hx : ∀ k : Fin 128, iblk7 V c 0 t (ix2 (j 0) k)
      = V c (Pipeline.arrRef spec7 0) (ix2 ((((cfg7.win 4).blk t).view.emb j) 0) k) := fun k => by
    show V c (Pipeline.arrRef spec7 0) (((cfg7.win 0).blk t).view.emb (ix2 (j 0) k)) = _
    refine congrArg _ (funext fun a => Fin.ext ?_)
    match a with
    | ⟨0, _⟩ => show win7_0.index t (0 : Fin 2) * 4000 + 1 * (j 0).val = win7_4.index t (0 : Fin 2) * 4000 + 1 * (j 0).val; omega
    | ⟨1, _⟩ => show win7_0.index t (1 : Fin 2) * 128 + 1 * k.val = k.val; omega
  have hw : ∀ k : Fin 128, iblk7 V c 1 t (ix2 k (j 1))
      = V c (Pipeline.arrRef spec7 1) (ix2 k ((((cfg7.win 4).blk t).view.emb j) 1)) := fun k => by
    show V c (Pipeline.arrRef spec7 1) (((cfg7.win 1).blk t).view.emb (ix2 k (j 1))) = _
    refine congrArg _ (funext fun a => Fin.ext ?_)
    match a with
    | ⟨0, _⟩ => show win7_1.index t (0 : Fin 2) * 128 + 1 * k.val = k.val; omega
    | ⟨1, _⟩ => show win7_1.index t (1 : Fin 2) * 128 + 1 * (j 1).val = win7_4.index t (1 : Fin 2) * 128 + 1 * (j 1).val; omega
  have hx0 : iblk7 V c 0 t j = V c (Pipeline.arrRef spec7 0) (((cfg7.win 4).blk t).view.emb j) := by
    show V c (Pipeline.arrRef spec7 0) (((cfg7.win 0).blk t).view.emb j) = _
    refine congrArg _ (funext fun a => Fin.ext ?_)
    match a with
    | ⟨0, _⟩ => show win7_0.index t (0 : Fin 2) * 4000 + 1 * (j 0).val = win7_4.index t (0 : Fin 2) * 4000 + 1 * (j 0).val; omega
    | ⟨1, _⟩ => show win7_0.index t (1 : Fin 2) * 128 + 1 * (j 1).val = win7_4.index t (1 : Fin 2) * 128 + 1 * (j 1).val; omega
  have hg : iblk7 V c 2 t j = V c (Pipeline.arrRef spec7 2) (((cfg7.win 4).blk t).view.emb j) := by
    show V c (Pipeline.arrRef spec7 2) (((cfg7.win 2).blk t).view.emb j) = _
    refine congrArg _ (funext fun a => Fin.ext ?_)
    match a with
    | ⟨0, _⟩ => show win7_2.index t (0 : Fin 2) * 4000 + 1 * (j 0).val = win7_4.index t (0 : Fin 2) * 4000 + 1 * (j 0).val; omega
    | ⟨1, _⟩ => show win7_2.index t (1 : Fin 2) * 128 + 1 * (j 1).val = win7_4.index t (1 : Fin 2) * 128 + 1 * (j 1).val; omega
  have hb : iblk7 V c 3 t (ix2 (0 : Fin 1) (j 1))
      = V c (Pipeline.arrRef spec7 3) (ix2 (0 : Fin 1) ((((cfg7.win 4).blk t).view.emb j) 1)) := by
    show V c (Pipeline.arrRef spec7 3) (((cfg7.win 3).blk t).view.emb (ix2 (0 : Fin 1) (j 1))) = _
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * (j 1).val = win7_4.index t (1 : Fin 2) * 128 + 1 * (j 1).val; omega
  unfold upd mm
  rw [hx0, hg, hb]
  simp only [hx, hw]

/-- An index of the result array is in point t's block iff each coordinate is in the block's range. -/
theorem mem_block7 (t : Fin cfg7.N) (i : S100000x128.Idx) :
    i ∈ ((cfg7.win 4).blk t).view.set ↔ ∀ a : Fin 2, win7_4.index t a * S4000x128.size a ≤ (i a).val
      ∧ (i a).val < win7_4.index t a * S4000x128.size a + S4000x128.size a := by
  show i ∈ ((View.whole (Pipeline.arrRef spec7 4)).slice (win7_4.rect t)).set ↔ _
  rw [View.set_slice_whole, Rect.mem_set_unit]
  exact Iff.rfl

/-- The 25 row blocks cover the result array: row r lies in block r / 4000. -/
theorem cover7 (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  obtain ⟨t, ht⟩ := onto7 ⟨(i 0).val / 4000, by omega⟩
  have q0 : win7_4.index t (0 : Fin 2) = (i 0).val / 4000 := congrFun ht 0
  have q1 : win7_4.index t (1 : Fin 2) = 0 := congrFun ht 1
  refine ⟨t, flush7_4 t, ?_⟩
  rw [mem_block7]
  intro a
  match a with
  | ⟨0, _⟩ => show win7_4.index t (0 : Fin 2) * 4000 ≤ (i 0).val ∧ (i 0).val < win7_4.index t (0 : Fin 2) * 4000 + 4000; omega
  | ⟨1, _⟩ => show win7_4.index t (1 : Fin 2) * 128 ≤ (i 1).val ∧ (i 1).val < win7_4.index t (1 : Fin 2) * 128 + 128; omega

/-- The result array after the call: the update of the four arrays the call found. -/
theorem update7 (c : Dev nD) :
    (dat7 V c).arrAt 4 cfg7.N = upd (V c (Pipeline.arrRef spec7 0)) (V c (Pipeline.arrRef spec7 1))
      (V c (Pipeline.arrRef spec7 2)) (V c (Pipeline.arrRef spec7 3)) :=
  (dat7 V c).arrAt_eq_of_cover 4 _ (fun t _ => flushed7 V c t) (cover7)

end Cert.KernelIdeal.Blocks

end
-- ==== Proof.HostStretches.lean ====
/-
  The stretches of host operations between the kernel calls.

  Each stretch writes only its own results, so every other buffer keeps its contents through it. The four stretches
  between a projection call and an update call all compute the same aggregate of a projected feature matrix xw:
      scatter-add over the edges of (xw gathered at the edge sources, scaled by the edge weight)
        + xw scaled row by row by the self-loop weight,
  with negative source indices wrapped once by the number of nodes; `aggregate` names that composed term, and each
  stretch's result is read back as `aggregate` of the buffers it reads.
-/
import proofs.«162889_j14310831030632_1_alg».proof.Proof.Gen.KernelIdeal.Launch
import Idealize.ShloMosaic.Lib.StableHlo.Run

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffers stretch 0 writes. -/
abbrev written0 : List (Ref sig .tc) := [main_v0, main_v1, main_v2, main_v3, main_v4, main_v5, main_v6, main_v7, main_c, main_v8, main_v9, main_v10, main_v11, main_cst, main_v12, main_v13, main_v14, main_v15, main_v16, main_v17, main_v18, main_v19, main_cst_0, main_v20, main_cst_1, main_v21, main_v22, main_v23, main_cst_2, main_v24, main_v25, main_v26, main_c_3, main_v27, main_v28, main_c_4, main_v29, main_v30, main_v31, main_v32, main_v33, main_c_5, main_v34, main_v35, main_c_6, main_v36, main_v37, main_v38, main_v39, main_v40, main_v41, main_v42, main_v43, main_v44]

set_option maxHeartbeats 4000000 in
theorem writes0 : (hostOps0 : List (HloOp τ sig (Elt F))).Forall fun op => op.writes ⊆ (written0.map (Proc.devRef (τ := τ) .tc)).toFinset := by
  simp only [List.Forall]
  repeat' apply And.intro
  all_goals first
    | trivial
    | (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 0 does not write keeps its contents through it. -/
theorem kept0 (W : Valuation τ sig (Elt F)) (b : Ref sig .tc) (hb : b ∉ written0) :
    after hostOps0 W (Proc.devRef .tc b) = W (Proc.devRef .tc b) :=
  after_of_writes_sub hostOps0 W writes0 hb

/-- The buffers stretch 1 writes. -/
abbrev written1 : List (Ref sig .tc) := [main_c_7, main_v46, main_v47, main_c_8, main_v48, main_v49, main_v50, main_v51, main_v52, main_v53, main_v54, main_cst_9, main_v55, main_v56, main_v57, main_v58, main_v59, main_v60]

theorem writes1 : (hostOps1 : List (HloOp τ sig (Elt F))).Forall fun op => op.writes ⊆ (written1.map (Proc.devRef (τ := τ) .tc)).toFinset := by
  simp only [List.Forall]
  repeat' apply And.intro
  all_goals first
    | trivial
    | (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 1 does not write keeps its contents through it. -/
theorem kept1 (W : Valuation τ sig (Elt F)) (b : Ref sig .tc) (hb : b ∉ written1) :
    after hostOps1 W (Proc.devRef .tc b) = W (Proc.devRef .tc b) :=
  after_of_writes_sub hostOps1 W writes1 hb

/-- The buffers stretch 3 writes. -/
abbrev written3 : List (Ref sig .tc) := [main_c_10, main_v63, main_v64, main_c_11, main_v65, main_v66, main_v67, main_v68, main_v69, main_v70, main_v71, main_cst_12, main_v72, main_v73, main_v74, main_v75, main_v76, main_v77]

theorem writes3 : (hostOps3 : List (HloOp τ sig (Elt F))).Forall fun op => op.writes ⊆ (written3.map (Proc.devRef (τ := τ) .tc)).toFinset := by
  simp only [List.Forall]
  repeat' apply And.intro
  all_goals first
    | trivial
    | (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 3 does not write keeps its contents through it. -/
theorem kept3 (W : Valuation τ sig (Elt F)) (b : Ref sig .tc) (hb : b ∉ written3) :
    after hostOps3 W (Proc.devRef .tc b) = W (Proc.devRef .tc b) :=
  after_of_writes_sub hostOps3 W writes3 hb

/-- The buffers stretch 5 writes. -/
abbrev written5 : List (Ref sig .tc) := [main_c_13, main_v80, main_v81, main_c_14, main_v82, main_v83, main_v84, main_v85, main_v86, main_v87, main_v88, main_cst_15, main_v89, main_v90, main_v91, main_v92, main_v93, main_v94]

theorem writes5 : (hostOps5 : List (HloOp τ sig (Elt F))).Forall fun op => op.writes ⊆ (written5.map (Proc.devRef (τ := τ) .tc)).toFinset := by
  simp only [List.Forall]
  repeat' apply And.intro
  all_goals first
    | trivial
    | (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 5 does not write keeps its contents through it. -/
theorem kept5 (W : Valuation τ sig (Elt F)) (b : Ref sig .tc) (hb : b ∉ written5) :
    after hostOps5 W (Proc.devRef .tc b) = W (Proc.devRef .tc b) :=
  after_of_writes_sub hostOps5 W writes5 hb

/-- The buffers stretch 7 writes. -/
abbrev written7 : List (Ref sig .tc) := [main_c_16, main_v97, main_v98, main_c_17, main_v99, main_v100, main_v101, main_v102, main_v103, main_v104, main_v105, main_cst_18, main_v106, main_v107, main_v108, main_v109, main_v110, main_v111]

theorem writes7 : (hostOps7 : List (HloOp τ sig (Elt F))).Forall fun op => op.writes ⊆ (written7.map (Proc.devRef (τ := τ) .tc)).toFinset := by
  simp only [List.Forall]
  repeat' apply And.intro
  all_goals first
    | trivial
    | (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 7 does not write keeps its contents through it. -/
theorem kept7 (W : Valuation τ sig (Elt F)) (b : Ref sig .tc) (hb : b ∉ written7) :
    after hostOps7 W (Proc.devRef .tc b) = W (Proc.devRef .tc b) :=
  after_of_writes_sub hostOps7 W writes7 hb

/-- The aggregate of a projected feature matrix over the graph: the edge term scattered to the destinations plus the
    self-loop term. `src`, `dst` are the edge endpoints, `nc` the edge weights as a column, `sc` the self-loop weights
    as a column. -/
def aggregate (src dst : (⟨S1600000, .i32⟩ : BufTy).Contents (Elt F)) (nc : (⟨S1600000x1, .f32⟩ : BufTy).Contents (Elt F))
    (sc : (⟨S100000x1, .f32⟩ : BufTy).Contents (Elt F)) (xw : (⟨S100000x128, .f32⟩ : BufTy).Contents (Elt F)) :
    (⟨S100000x128, .f32⟩ : BufTy).Contents (Elt F) :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (Host.gather gather_S100000x128_S1600000x1_S1600000x128_1_0_n_n_0_1_1128 xw
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x128 ![0, 1] bcast_S1600000x1_S1600000x128_0_1 nc)))
    (mulf xw (broadcastInDim S100000x128 ![0, 1] bcast_S100000x1_S100000x128_0_1 sc))

set_option maxHeartbeats 2000000 in
/-- Stretch 1's result is the aggregate of the buffers it reads. -/
theorem aggregate1 (W : Valuation τ sig (Elt F)) :
    after hostOps1 W (no_index (Proc.devRef .tc main_v60))
      = aggregate (W (Proc.devRef .tc main_v1)) (W (Proc.devRef .tc main_v3)) (W (Proc.devRef .tc main_v42))
          (W (Proc.devRef .tc main_v44)) (W (Proc.devRef .tc main_v45)) := by
  simp only [hostOps1]
  after_results_simp
  rfl

set_option maxHeartbeats 2000000 in
/-- Stretch 3's result is the aggregate of the buffers it reads. -/
theorem aggregate3 (W : Valuation τ sig (Elt F)) :
    after hostOps3 W (no_index (Proc.devRef .tc main_v77))
      = aggregate (W (Proc.devRef .tc main_v1)) (W (Proc.devRef .tc main_v3)) (W (Proc.devRef .tc main_v42))
          (W (Proc.devRef .tc main_v44)) (W (Proc.devRef .tc main_v62)) := by
  simp only [hostOps3]
  after_results_simp
  rfl

set_option maxHeartbeats 2000000 in
/-- Stretch 5's result is the aggregate of the buffers it reads. -/
theorem aggregate5 (W : Valuation τ sig (Elt F)) :
    after hostOps5 W (no_index (Proc.devRef .tc main_v94))
      = aggregate (W (Proc.devRef .tc main_v1)) (W (Proc.devRef .tc main_v3)) (W (Proc.devRef .tc main_v42))
          (W (Proc.devRef .tc main_v44)) (W (Proc.devRef .tc main_v79)) := by
  simp only [hostOps5]
  after_results_simp
  rfl

set_option maxHeartbeats 2000000 in
/-- Stretch 7's result is the aggregate of the buffers it reads. -/
theorem aggregate7 (W : Valuation τ sig (Elt F)) :
    after hostOps7 W (no_index (Proc.devRef .tc main_v111))
      = aggregate (W (Proc.devRef .tc main_v1)) (W (Proc.devRef .tc main_v3)) (W (Proc.devRef .tc main_v42))
          (W (Proc.devRef .tc main_v44)) (W (Proc.devRef .tc main_v96)) := by
  simp only [hostOps7]
  after_results_simp
  rfl

end Cert.KernelIdeal.Host

end
-- ==== Proof.CallsKeep.lean ====
/-
  What a kernel call leaves of the buffers it does not produce.

  A pipelined call writes back only its result array. A buffer that is none of the call's arrays is untouched; an
  array the call only reads through an input window is folded over no write-back at all, so it too ends as the call
  found it. Hence every buffer other than the call's result keeps its contents across the call.
-/
import proofs.«162889_j14310831030632_1_alg».proof.Proof.Gen.KernelIdeal.Frame

set_option maxRecDepth 16384

noncomputable section

namespace Cert.KernelIdeal.Calls

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Across call 0 every buffer but its result `main_v45` keeps its contents. -/
theorem kept_call0 (c : Dev nD) (b : Ref sig .tc) (hb : b ≠ main_v45) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hb

/-- Across call 1 every buffer but its result `main_v61` keeps its contents. -/
theorem kept_call1 (c : Dev nD) (b : Ref sig .tc) (hb : b ≠ main_v61) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl hb

/-- Across call 2 every buffer but its result `main_v62` keeps its contents. -/
theorem kept_call2 (c : Dev nD) (b : Ref sig .tc) (hb : b ≠ main_v62) :
    W5 m ρ c (Proc.devRef .tc b) = W4 m ρ c (Proc.devRef .tc b) := by
  by_cases h : ∀ w, Pipeline.arrRef spec2 w ≠ b
  · exact W5_of_ne m ρ c b h
  · push Not at h
    obtain ⟨w, rfl⟩ := h
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl hb

/-- Across call 3 every buffer but its result `main_v78` keeps its contents. -/
theorem kept_call3 (c : Dev nD) (b : Ref sig .tc) (hb : b ≠ main_v78) :
    W7 m ρ c (Proc.devRef .tc b) = W6 m ρ c (Proc.devRef .tc b) := by
  by_cases h : ∀ w, Pipeline.arrRef spec3 w ≠ b
  · exact W7_of_ne m ρ c b h
  · push Not at h
    obtain ⟨w, rfl⟩ := h
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact absurd rfl hb

/-- Across call 4 every buffer but its result `main_v79` keeps its contents. -/
theorem kept_call4 (c : Dev nD) (b : Ref sig .tc) (hb : b ≠ main_v79) :
    W8 m ρ c (Proc.devRef .tc b) = W7 m ρ c (Proc.devRef .tc b) := by
  by_cases h : ∀ w, Pipeline.arrRef spec4 w ≠ b
  · exact W8_of_ne m ρ c b h
  · push Not at h
    obtain ⟨w, rfl⟩ := h
    match w with
    | ⟨0, _⟩ => exact (W8_arr m ρ c 0).trans (((dat4 (V7 m ρ) c).arrAt_in 0 rfl _).trans (A_eq4 (V7 m ρ) c 0))
    | ⟨1, _⟩ => exact (W8_arr m ρ c 1).trans (((dat4 (V7 m ρ) c).arrAt_in 1 rfl _).trans (A_eq4 (V7 m ρ) c 1))
    | ⟨2, _⟩ => exact absurd rfl hb

/-- Across call 5 every buffer but its result `main_v95` keeps its contents. -/
theorem kept_call5 (c : Dev nD) (b : Ref sig .tc) (hb : b ≠ main_v95) :
    W10 m ρ c (Proc.devRef .tc b) = W9 m ρ c (Proc.devRef .tc b) := by
  by_cases h : ∀ w, Pipeline.arrRef spec5 w ≠ b
  · exact W10_of_ne m ρ c b h
  · push Not at h
    obtain ⟨w, rfl⟩ := h
    match w with
    | ⟨0, _⟩ => exact (W10_arr m ρ c 0).trans (((dat5 (V9 m ρ) c).arrAt_in 0 rfl _).trans (A_eq5 (V9 m ρ) c 0))
    | ⟨1, _⟩ => exact (W10_arr m ρ c 1).trans (((dat5 (V9 m ρ) c).arrAt_in 1 rfl _).trans (A_eq5 (V9 m ρ) c 1))
    | ⟨2, _⟩ => exact (W10_arr m ρ c 2).trans (((dat5 (V9 m ρ) c).arrAt_in 2 rfl _).trans (A_eq5 (V9 m ρ) c 2))
    | ⟨3, _⟩ => exact (W10_arr m ρ c 3).trans (((dat5 (V9 m ρ) c).arrAt_in 3 rfl _).trans (A_eq5 (V9 m ρ) c 3))
    | ⟨4, _⟩ => exact absurd rfl hb

/-- Across call 6 every buffer but its result `main_v96` keeps its contents. -/
theorem kept_call6 (c : Dev nD) (b : Ref sig .tc) (hb : b ≠ main_v96) :
    W11 m ρ c (Proc.devRef .tc b) = W10 m ρ c (Proc.devRef .tc b) := by
  by_cases h : ∀ w, Pipeline.arrRef spec6 w ≠ b
  · exact W11_of_ne m ρ c b h
  · push Not at h
    obtain ⟨w, rfl⟩ := h
    match w with
    | ⟨0, _⟩ => exact (W11_arr m ρ c 0).trans (((dat6 (V10 m ρ) c).arrAt_in 0 rfl _).trans (A_eq6 (V10 m ρ) c 0))
    | ⟨1, _⟩ => exact (W11_arr m ρ c 1).trans (((dat6 (V10 m ρ) c).arrAt_in 1 rfl _).trans (A_eq6 (V10 m ρ) c 1))
    | ⟨2, _⟩ => exact absurd rfl hb

/-- Across call 7 every buffer but its result `main_v112` keeps its contents. -/
theorem kept_call7 (c : Dev nD) (b : Ref sig .tc) (hb : b ≠ main_v112) :
    W13 m ρ c (Proc.devRef .tc b) = W12 m ρ c (Proc.devRef .tc b) := by
  by_cases h : ∀ w, Pipeline.arrRef spec7 w ≠ b
  · exact W13_of_ne m ρ c b h
  · push Not at h
    obtain ⟨w, rfl⟩ := h
    match w with
    | ⟨0, _⟩ => exact (W13_arr m ρ c 0).trans (((dat7 (V12 m ρ) c).arrAt_in 0 rfl _).trans (A_eq7 (V12 m ρ) c 0))
    | ⟨1, _⟩ => exact (W13_arr m ρ c 1).trans (((dat7 (V12 m ρ) c).arrAt_in 1 rfl _).trans (A_eq7 (V12 m ρ) c 1))
    | ⟨2, _⟩ => exact (W13_arr m ρ c 2).trans (((dat7 (V12 m ρ) c).arrAt_in 2 rfl _).trans (A_eq7 (V12 m ρ) c 2))
    | ⟨3, _⟩ => exact (W13_arr m ρ c 3).trans (((dat7 (V12 m ρ) c).arrAt_in 3 rfl _).trans (A_eq7 (V12 m ρ) c 3))
    | ⟨4, _⟩ => exact absurd rfl hb

end Cert.KernelIdeal.Calls

end
-- ==== Proof.Layers.lean ====
/-
  The four layers of the kernel program, one after the other.

  Seven buffers are computed once, before the first call, and only read afterwards: the edge sources and
  destinations, the two weight matrices (transposed, narrowed to bf16), the bias as a row, and the edge and
  self-loop weights as columns. One layer takes the node features x to
      upd x Aᵀ (aggregate (x·Wφᵀ)) b
  through a projection call, a stretch of host operations and an update call. Across each of those three
  segments the seven buffers and the layer's input keep their contents, so the buffer the fourth update call
  writes holds the layer function applied four times to the program's first argument.
-/
import proofs.«162889_j14310831030632_1_alg».proof.Proof.Product0
import proofs.«162889_j14310831030632_1_alg».proof.Proof.Product2
import proofs.«162889_j14310831030632_1_alg».proof.Proof.Product4
import proofs.«162889_j14310831030632_1_alg».proof.Proof.Product6
import proofs.«162889_j14310831030632_1_alg».proof.Proof.Update1
import proofs.«162889_j14310831030632_1_alg».proof.Proof.Update3
import proofs.«162889_j14310831030632_1_alg».proof.Proof.Update5
import proofs.«162889_j14310831030632_1_alg».proof.Proof.Update7
import proofs.«162889_j14310831030632_1_alg».proof.Proof.HostStretches
import proofs.«162889_j14310831030632_1_alg».proof.Proof.CallsKeep

set_option maxRecDepth 16384

noncomputable section

namespace Cert.KernelIdeal.Layers

open Idealize.ShloMosaic Idealize.ShloMosaic.TcCoe Idealize.SL.Sem
open Cert.KernelIdeal Cert.KernelIdeal.Gen Cert.Layer Cert.KernelIdeal.Blocks Cert.KernelIdeal.Host Cert.KernelIdeal.Calls

variable (m : (ℓ : Loc nD τ sig) → Buf (Elt Ideal) ℓ) (ρ : Dev nD → PrngReg) (c : Dev nD)

/-- Two buffer contents agree on the seven buffers computed once. -/
def Same (W W' : Valuation τ sig (Elt Ideal)) : Prop :=
  W (Proc.devRef .tc main_v1) = W' (Proc.devRef .tc main_v1)
  ∧ W (Proc.devRef .tc main_v3) = W' (Proc.devRef .tc main_v3)
  ∧ W (Proc.devRef .tc main_v16) = W' (Proc.devRef .tc main_v16)
  ∧ W (Proc.devRef .tc main_v18) = W' (Proc.devRef .tc main_v18)
  ∧ W (Proc.devRef .tc main_v19) = W' (Proc.devRef .tc main_v19)
  ∧ W (Proc.devRef .tc main_v42) = W' (Proc.devRef .tc main_v42)
  ∧ W (Proc.devRef .tc main_v44) = W' (Proc.devRef .tc main_v44)

/-- One layer, from the seven buffers as `W` holds them. -/
def layer (W : Valuation τ sig (Elt Ideal)) (x : SN.Idx → EReal) : SN.Idx → EReal :=
  upd x (W (Proc.devRef .tc main_v16)) (aggregate (F := Ideal) (W (Proc.devRef .tc main_v1)) (W (Proc.devRef .tc main_v3)) (W (Proc.devRef .tc main_v42))
    (W (Proc.devRef .tc main_v44)) (mm x (W (Proc.devRef .tc main_v18)))) (W (Proc.devRef .tc main_v19))

/-- Layer 1: calls 0 and 1 around host stretch 1. -/
theorem layer1 (X : SN.Idx → EReal) (hS : Same (W1 m ρ c) (W1 m ρ c)) (hX : W1 m ρ c (Proc.devRef .tc main_arg0) = X) :
    Same (W4 m ρ c) (W1 m ρ c) ∧ W4 m ρ c (Proc.devRef .tc main_v61) = layer (W1 m ρ c) X := by
  obtain ⟨s1, s3, s16, s18, s19, s42, s44⟩ := hS
  have k : ∀ b : Ref sig .tc, b ≠ main_v45 → W2 m ρ c (Proc.devRef .tc b) = W1 m ρ c (Proc.devRef .tc b) :=
    fun b hb => kept_call0 m ρ c b hb
  have kh : ∀ b : Ref sig .tc, b ∉ written1 → W3 m ρ c (Proc.devRef .tc b) = W2 m ρ c (Proc.devRef .tc b) :=
    fun b hb => kept1 (W2 m ρ c) b hb
  have ku : ∀ b : Ref sig .tc, b ≠ main_v61 → W4 m ρ c (Proc.devRef .tc b) = W3 m ρ c (Proc.devRef .tc b) :=
    fun b hb => kept_call1 m ρ c b hb
  have p : W2 m ρ c (Proc.devRef .tc main_v45) = mm X (W1 m ρ c (Proc.devRef .tc main_v18)) := by
    refine (W2_arr m ρ c 2).trans ?_
    rw [product0 (V1 m ρ) c]
    show mm (W1 m ρ c (Proc.devRef .tc main_arg0)) (W1 m ρ c (Proc.devRef .tc main_v18)) = _
    rw [hX, s18]
  have a : W3 m ρ c (Proc.devRef .tc main_v60) = aggregate (F := Ideal) (W1 m ρ c (Proc.devRef .tc main_v1)) (W1 m ρ c (Proc.devRef .tc main_v3))
      (W1 m ρ c (Proc.devRef .tc main_v42)) (W1 m ρ c (Proc.devRef .tc main_v44)) (mm X (W1 m ρ c (Proc.devRef .tc main_v18))) := by
    show StableHlo.after hostOps1 (W2 m ρ c) (Proc.devRef .tc main_v60) = _
    rw [aggregate1, k main_v1 (by decide), k main_v3 (by decide), k main_v42 (by decide), k main_v44 (by decide), p,
      s1, s3, s42, s44]
  have u : W4 m ρ c (Proc.devRef .tc main_v61) = layer (W1 m ρ c) X := by
    refine (W4_arr m ρ c 4).trans ?_
    rw [update1 (V3 m ρ) c]
    show upd (W3 m ρ c (Proc.devRef .tc main_arg0)) (W3 m ρ c (Proc.devRef .tc main_v16)) (W3 m ρ c (Proc.devRef .tc main_v60))
      (W3 m ρ c (Proc.devRef .tc main_v19)) = _
    rw [a, kh main_arg0 (by decide), k main_arg0 (by decide), hX, kh main_v16 (by decide), k main_v16 (by decide), s16,
      kh main_v19 (by decide), k main_v19 (by decide), s19]
    rfl
  exact ⟨⟨(ku main_v1 (by decide)).trans ((kh main_v1 (by decide)).trans ((k main_v1 (by decide)).trans s1)),
    (ku main_v3 (by decide)).trans ((kh main_v3 (by decide)).trans ((k main_v3 (by decide)).trans s3)),
    (ku main_v16 (by decide)).trans ((kh main_v16 (by decide)).trans ((k main_v16 (by decide)).trans s16)),
    (ku main_v18 (by decide)).trans ((kh main_v18 (by decide)).trans ((k main_v18 (by decide)).trans s18)),
    (ku main_v19 (by decide)).trans ((kh main_v19 (by decide)).trans ((k main_v19 (by decide)).trans s19)),
    (ku main_v42 (by decide)).trans ((kh main_v42 (by decide)).trans ((k main_v42 (by decide)).trans s42)),
    (ku main_v44 (by decide)).trans ((kh main_v44 (by decide)).trans ((k main_v44 (by decide)).trans s44))⟩, u⟩

/-- Layer 2: calls 2 and 3 around host stretch 3. -/
theorem layer2 (X : SN.Idx → EReal) (hS : Same (W4 m ρ c) (W1 m ρ c)) (hX : W4 m ρ c (Proc.devRef .tc main_v61) = X) :
    Same (W7 m ρ c) (W1 m ρ c) ∧ W7 m ρ c (Proc.devRef .tc main_v78) = layer (W1 m ρ c) X := by
  obtain ⟨s1, s3, s16, s18, s19, s42, s44⟩ := hS
  have k : ∀ b : Ref sig .tc, b ≠ main_v62 → W5 m ρ c (Proc.devRef .tc b) = W4 m ρ c (Proc.devRef .tc b) :=
    fun b hb => kept_call2 m ρ c b hb
  have kh : ∀ b : Ref sig .tc, b ∉ written3 → W6 m ρ c (Proc.devRef .tc b) = W5 m ρ c (Proc.devRef .tc b) :=
    fun b hb => kept3 (W5 m ρ c) b hb
  have ku : ∀ b : Ref sig .tc, b ≠ main_v78 → W7 m ρ c (Proc.devRef .tc b) = W6 m ρ c (Proc.devRef .tc b) :=
    fun b hb => kept_call3 m ρ c b hb
  have p : W5 m ρ c (Proc.devRef .tc main_v62) = mm X (W1 m ρ c (Proc.devRef .tc main_v18)) := by
    refine (W5_arr m ρ c 2).trans ?_
    rw [product2 (V4 m ρ) c]
    show mm (W4 m ρ c (Proc.devRef .tc main_v61)) (W4 m ρ c (Proc.devRef .tc main_v18)) = _
    rw [hX, s18]
  have a : W6 m ρ c (Proc.devRef .tc main_v77) = aggregate (F := Ideal) (W1 m ρ c (Proc.devRef .tc main_v1)) (W1 m ρ c (Proc.devRef .tc main_v3))
      (W1 m ρ c (Proc.devRef .tc main_v42)) (W1 m ρ c (Proc.devRef .tc main_v44)) (mm X (W1 m ρ c (Proc.devRef .tc main_v18))) := by
    show StableHlo.after hostOps3 (W5 m ρ c) (Proc.devRef .tc main_v77) = _
    rw [aggregate3, k main_v1 (by decide), k main_v3 (by decide), k main_v42 (by decide), k main_v44 (by decide), p,
      s1, s3, s42, s44]
  have u : W7 m ρ c (Proc.devRef .tc main_v78) = layer (W1 m ρ c) X := by
    refine (W7_arr m ρ c 4).trans ?_
    rw [update3 (V6 m ρ) c]
    show upd (W6 m ρ c (Proc.devRef .tc main_v61)) (W6 m ρ c (Proc.devRef .tc main_v16)) (W6 m ρ c (Proc.devRef .tc main_v77))
      (W6 m ρ c (Proc.devRef .tc main_v19)) = _
    rw [a, kh main_v61 (by decide), k main_v61 (by decide), hX, kh main_v16 (by decide), k main_v16 (by decide), s16,
      kh main_v19 (by decide), k main_v19 (by decide), s19]
    rfl
  exact ⟨⟨(ku main_v1 (by decide)).trans ((kh main_v1 (by decide)).trans ((k main_v1 (by decide)).trans s1)),
    (ku main_v3 (by decide)).trans ((kh main_v3 (by decide)).trans ((k main_v3 (by decide)).trans s3)),
    (ku main_v16 (by decide)).trans ((kh main_v16 (by decide)).trans ((k main_v16 (by decide)).trans s16)),
    (ku main_v18 (by decide)).trans ((kh main_v18 (by decide)).trans ((k main_v18 (by decide)).trans s18)),
    (ku main_v19 (by decide)).trans ((kh main_v19 (by decide)).trans ((k main_v19 (by decide)).trans s19)),
    (ku main_v42 (by decide)).trans ((kh main_v42 (by decide)).trans ((k main_v42 (by decide)).trans s42)),
    (ku main_v44 (by decide)).trans ((kh main_v44 (by decide)).trans ((k main_v44 (by decide)).trans s44))⟩, u⟩

/-- Layer 3: calls 4 and 5 around host stretch 5. -/
theorem layer3 (X : SN.Idx → EReal) (hS : Same (W7 m ρ c) (W1 m ρ c)) (hX : W7 m ρ c (Proc.devRef .tc main_v78) = X) :
    Same (W10 m ρ c) (W1 m ρ c) ∧ W10 m ρ c (Proc.devRef .tc main_v95) = layer (W1 m ρ c) X := by
  obtain ⟨s1, s3, s16, s18, s19, s42, s44⟩ := hS
  have k : ∀ b : Ref sig .tc, b ≠ main_v79 → W8 m ρ c (Proc.devRef .tc b) = W7 m ρ c (Proc.devRef .tc b) :=
    fun b hb => kept_call4 m ρ c b hb
  have kh : ∀ b : Ref sig .tc, b ∉ written5 → W9 m ρ c (Proc.devRef .tc b) = W8 m ρ c (Proc.devRef .tc b) :=
    fun b hb => kept5 (W8 m ρ c) b hb
  have ku : ∀ b : Ref sig .tc, b ≠ main_v95 → W10 m ρ c (Proc.devRef .tc b) = W9 m ρ c (Proc.devRef .tc b) :=
    fun b hb => kept_call5 m ρ c b hb
  have p : W8 m ρ c (Proc.devRef .tc main_v79) = mm X (W1 m ρ c (Proc.devRef .tc main_v18)) := by
    refine (W8_arr m ρ c 2).trans ?_
    rw [product4 (V7 m ρ) c]
    show mm (W7 m ρ c (Proc.devRef .tc main_v78)) (W7 m ρ c (Proc.devRef .tc main_v18)) = _
    rw [hX, s18]
  have a : W9 m ρ c (Proc.devRef .tc main_v94) = aggregate (F := Ideal) (W1 m ρ c (Proc.devRef .tc main_v1)) (W1 m ρ c (Proc.devRef .tc main_v3))
      (W1 m ρ c (Proc.devRef .tc main_v42)) (W1 m ρ c (Proc.devRef .tc main_v44)) (mm X (W1 m ρ c (Proc.devRef .tc main_v18))) := by
    show StableHlo.after hostOps5 (W8 m ρ c) (Proc.devRef .tc main_v94) = _
    rw [aggregate5, k main_v1 (by decide), k main_v3 (by decide), k main_v42 (by decide), k main_v44 (by decide), p,
      s1, s3, s42, s44]
  have u : W10 m ρ c (Proc.devRef .tc main_v95) = layer (W1 m ρ c) X := by
    refine (W10_arr m ρ c 4).trans ?_
    rw [update5 (V9 m ρ) c]
    show upd (W9 m ρ c (Proc.devRef .tc main_v78)) (W9 m ρ c (Proc.devRef .tc main_v16)) (W9 m ρ c (Proc.devRef .tc main_v94))
      (W9 m ρ c (Proc.devRef .tc main_v19)) = _
    rw [a, kh main_v78 (by decide), k main_v78 (by decide), hX, kh main_v16 (by decide), k main_v16 (by decide), s16,
      kh main_v19 (by decide), k main_v19 (by decide), s19]
    rfl
  exact ⟨⟨(ku main_v1 (by decide)).trans ((kh main_v1 (by decide)).trans ((k main_v1 (by decide)).trans s1)),
    (ku main_v3 (by decide)).trans ((kh main_v3 (by decide)).trans ((k main_v3 (by decide)).trans s3)),
    (ku main_v16 (by decide)).trans ((kh main_v16 (by decide)).trans ((k main_v16 (by decide)).trans s16)),
    (ku main_v18 (by decide)).trans ((kh main_v18 (by decide)).trans ((k main_v18 (by decide)).trans s18)),
    (ku main_v19 (by decide)).trans ((kh main_v19 (by decide)).trans ((k main_v19 (by decide)).trans s19)),
    (ku main_v42 (by decide)).trans ((kh main_v42 (by decide)).trans ((k main_v42 (by decide)).trans s42)),
    (ku main_v44 (by decide)).trans ((kh main_v44 (by decide)).trans ((k main_v44 (by decide)).trans s44))⟩, u⟩

/-- Layer 4: calls 6 and 7 around host stretch 7. -/
theorem layer4 (X : SN.Idx → EReal) (hS : Same (W10 m ρ c) (W1 m ρ c)) (hX : W10 m ρ c (Proc.devRef .tc main_v95) = X) :
    Same (W13 m ρ c) (W1 m ρ c) ∧ W13 m ρ c (Proc.devRef .tc main_v112) = layer (W1 m ρ c) X := by
  obtain ⟨s1, s3, s16, s18, s19, s42, s44⟩ := hS
  have k : ∀ b : Ref sig .tc, b ≠ main_v96 → W11 m ρ c (Proc.devRef .tc b) = W10 m ρ c (Proc.devRef .tc b) :=
    fun b hb => kept_call6 m ρ c b hb
  have kh : ∀ b : Ref sig .tc, b ∉ written7 → W12 m ρ c (Proc.devRef .tc b) = W11 m ρ c (Proc.devRef .tc b) :=
    fun b hb => kept7 (W11 m ρ c) b hb
  have ku : ∀ b : Ref sig .tc, b ≠ main_v112 → W13 m ρ c (Proc.devRef .tc b) = W12 m ρ c (Proc.devRef .tc b) :=
    fun b hb => kept_call7 m ρ c b hb
  have p : W11 m ρ c (Proc.devRef .tc main_v96) = mm X (W1 m ρ c (Proc.devRef .tc main_v18)) := by
    refine (W11_arr m ρ c 2).trans ?_
    rw [product6 (V10 m ρ) c]
    show mm (W10 m ρ c (Proc.devRef .tc main_v95)) (W10 m ρ c (Proc.devRef .tc main_v18)) = _
    rw [hX, s18]
  have a : W12 m ρ c (Proc.devRef .tc main_v111) = aggregate (F := Ideal) (W1 m ρ c (Proc.devRef .tc main_v1)) (W1 m ρ c (Proc.devRef .tc main_v3))
      (W1 m ρ c (Proc.devRef .tc main_v42)) (W1 m ρ c (Proc.devRef .tc main_v44)) (mm X (W1 m ρ c (Proc.devRef .tc main_v18))) := by
    show StableHlo.after hostOps7 (W11 m ρ c) (Proc.devRef .tc main_v111) = _
    rw [aggregate7, k main_v1 (by decide), k main_v3 (by decide), k main_v42 (by decide), k main_v44 (by decide), p,
      s1, s3, s42, s44]
  have u : W13 m ρ c (Proc.devRef .tc main_v112) = layer (W1 m ρ c) X := by
    refine (W13_arr m ρ c 4).trans ?_
    rw [update7 (V12 m ρ) c]
    show upd (W12 m ρ c (Proc.devRef .tc main_v95)) (W12 m ρ c (Proc.devRef .tc main_v16)) (W12 m ρ c (Proc.devRef .tc main_v111))
      (W12 m ρ c (Proc.devRef .tc main_v19)) = _
    rw [a, kh main_v95 (by decide), k main_v95 (by decide), hX, kh main_v16 (by decide), k main_v16 (by decide), s16,
      kh main_v19 (by decide), k main_v19 (by decide), s19]
    rfl
  exact ⟨⟨(ku main_v1 (by decide)).trans ((kh main_v1 (by decide)).trans ((k main_v1 (by decide)).trans s1)),
    (ku main_v3 (by decide)).trans ((kh main_v3 (by decide)).trans ((k main_v3 (by decide)).trans s3)),
    (ku main_v16 (by decide)).trans ((kh main_v16 (by decide)).trans ((k main_v16 (by decide)).trans s16)),
    (ku main_v18 (by decide)).trans ((kh main_v18 (by decide)).trans ((k main_v18 (by decide)).trans s18)),
    (ku main_v19 (by decide)).trans ((kh main_v19 (by decide)).trans ((k main_v19 (by decide)).trans s19)),
    (ku main_v42 (by decide)).trans ((kh main_v42 (by decide)).trans ((k main_v42 (by decide)).trans s42)),
    (ku main_v44 (by decide)).trans ((kh main_v44 (by decide)).trans ((k main_v44 (by decide)).trans s44))⟩, u⟩

/-- The program's first argument reaches the first call as launched. -/
theorem input (c : Dev nD) : W1 m ρ c (Proc.devRef .tc main_arg0) = m ((c : Thread nD τ).loc main_arg0) :=
  kept0 (W0 m ρ c) main_arg0 (by decide)

/-- The result buffer after the last call: four layers of the first argument. -/
theorem result : W13 m ρ c (Proc.devRef .tc main_v112)
    = layer (W1 m ρ c) (layer (W1 m ρ c) (layer (W1 m ρ c) (layer (W1 m ρ c) (m ((c : Thread nD τ).loc main_arg0))))) := by
  obtain ⟨h1, x1⟩ := layer1 m ρ c _ ⟨rfl, rfl, rfl, rfl, rfl, rfl, rfl⟩ (input m ρ c)
  obtain ⟨h2, x2⟩ := layer2 m ρ c _ h1 x1
  obtain ⟨h3, x3⟩ := layer3 m ρ c _ h2 x2
  exact (layer4 m ρ c _ h3 x3).2

end Cert.KernelIdeal.Layers

end
-- ==== Proof.Hoisted.lean ====
/-
  What the program computes once, before its first kernel call, from its arguments.

  From the edge list (2 × 1600000 integers): the edge sources and destinations as rows; the in-degree plus one of every
  node (a scatter-add of ones over the destinations, plus the self loop) and its inverse square root d; the edge weight
  d[src]·d[dst] as a column; the self-loop weight d·d as a column. Negative indices are wrapped once by the number of
  nodes before a gather. From the weight W: the mixing matrix A = W − Wᵀ − ε·I, transposed and narrowed to bf16; from
  Wφ its transpose narrowed to bf16; from the bias its one-row form. Each of the seven buffers the kernel calls read is
  read back here as that composed term of the arguments' contents.
-/
import proofs.«162889_j14310831030632_1_alg».proof.Proof.Gen.KernelIdeal.Launch
import Idealize.ShloMosaic.Lib.StableHlo.Run

set_option maxRecDepth 8192

noncomputable section

namespace Cert.KernelIdeal.Hoisted

open Cert.KernelIdeal Cert.KernelIdeal.Gen Idealize.ShloMosaic Idealize.ShloMosaic.TcCoe Idealize.SL.Sem Idealize.ShloMosaic.StableHlo

variable {F : FTy → Type} [FloatOps F]

/-- Row `r` of the edge list as a vector of 1600000 node indices. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A vector of node indices with the negative ones wrapped once by the number of nodes, as a column of gather indices. -/
def wrapped (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The inverse square root of (in-degree + 1) of every node. -/
def invSqrtDeg (dst : (⟨S1600000, .i32⟩ : BufTy).Contents (Elt F)) : (⟨S100000, .f32⟩ : BufTy).Contents (Elt F) :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The edge weights d[src]·d[dst]. -/
def edgeWeight (src dst : (⟨S1600000, .i32⟩ : BufTy).Contents (Elt F)) : (⟨S1600000, .f32⟩ : BufTy).Contents (Elt F) :=
  mulf (Host.gather gather_S100000_S1600000x1_S1600000_n_0_n_n_0_1_1 (invSqrtDeg dst) (wrapped src))
    (Host.gather gather_S100000_S1600000x1_S1600000_n_0_n_n_0_1_1 (invSqrtDeg dst) (wrapped dst))

/-- The mixing matrix A = W − Wᵀ − ε·I. -/
def mixing (w : (⟨S128x128, .f32⟩ : BufTy).Contents (Elt F)) : (⟨S128x128, .f32⟩ : BufTy).Contents (Elt F) :=
  subf (subf w (transpose S128x128 [1, 0] w transposes_S128x128_S128x128_1_0))
    (mulf (broadcastInDim S128x128 ![] bcast_S_S128x128 (constant S_ .f32 0x3DCCCCCD#32))
      (uitofp .f32 (cmpi .eq (addi (iotaInDim S128x128 32 0) (broadcastInDim S128x128 ![] bcast_S_S128x128 (constantI S_ 32 0#32)))
        (iotaInDim S128x128 32 1))))

variable (W : Valuation τ sig (Elt F))

set_option maxHeartbeats 2000000 in
theorem sources : after hostOps0 W (no_index (Proc.devRef .tc main_v1)) = edgeRow0 (W (Proc.devRef .tc main_arg1)) := by
  simp only [hostOps0]
  after_results_simp
  rfl

set_option maxHeartbeats 2000000 in
theorem destinations : after hostOps0 W (no_index (Proc.devRef .tc main_v3)) = edgeRow1 (W (Proc.devRef .tc main_arg1)) := by
  simp only [hostOps0]
  after_results_simp
  rfl

set_option maxHeartbeats 2000000 in
theorem mixingT : after hostOps0 W (no_index (Proc.devRef .tc main_v16))
    = truncf .bf16 (transpose S128x128 [1, 0] (mixing (W (Proc.devRef .tc main_arg2))) transposes_S128x128_S128x128_1_0) bitsLt_bf16_f32 := by
  simp only [hostOps0]
  after_results_simp
  rfl

set_option maxHeartbeats 2000000 in
theorem projectionT : after hostOps0 W (no_index (Proc.devRef .tc main_v18))
    = truncf .bf16 (transpose S128x128 [1, 0] (W (Proc.devRef .tc main_arg3)) transposes_S128x128_S128x128_1_0) bitsLt_bf16_f32 := by
  simp only [hostOps0]
  after_results_simp

set_option maxHeartbeats 2000000 in
theorem biasRow : after hostOps0 W (no_index (Proc.devRef .tc main_v19))
    = shapeCast _ (W (Proc.devRef .tc main_arg4)) shapeCasts_S128_S1x128 := by
  simp only [hostOps0]
  after_results_simp
  rfl

set_option maxHeartbeats 4000000 in
theorem edgeColumn : after hostOps0 W (no_index (Proc.devRef .tc main_v42))
    = broadcastInDim S1600000x1 ![0] bcast_S1600000_S1600000x1_0
        (edgeWeight (edgeRow0 (W (Proc.devRef .tc main_arg1))) (edgeRow1 (W (Proc.devRef .tc main_arg1)))) := by
  simp only [hostOps0]
  after_results_simp
  rfl

set_option maxHeartbeats 4000000 in
theorem selfColumn : after hostOps0 W (no_index (Proc.devRef .tc main_v44))
    = broadcastInDim S100000x1 ![0] bcast_S100000_S100000x1_0
        (mulf (invSqrtDeg (edgeRow1 (W (Proc.devRef .tc main_arg1)))) (invSqrtDeg (edgeRow1 (W (Proc.devRef .tc main_arg1))))) := by
  simp only [hostOps0]
  after_results_simp
  rfl

end Cert.KernelIdeal.Hoisted

end
-- ==== Proof.Reference.lean ====
/-
  The reference program as four applications of one layer.

  The reference is a straight line of host operations. Per layer it projects the node features (x·Wφᵀ), recomputes
  the degree normalisation from the edge list, gathers the projection at the edge sources, scales by the edge weight,
  scatter-adds to the destinations, adds the self-loop term, and updates
      x ← x + ε · tanh (x·Aᵀ + aggregate + b).
  `step` names that composed term as a function of the four fixed arguments and the current features; the program's
  result is `step` applied four times to its first argument.
-/
import proofs.«162889_j14310831030632_1_alg».proof.Proof.Gen.ReferenceIdeal.Run

set_option maxRecDepth 8192

noncomputable section

namespace Cert.ReferenceIdeal.Layers

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The edge sources: row 0 of the edge list. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edge destinations: row 1 of the edge list. -/
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Node indices with the negative ones wrapped once by the number of nodes, as a column of gather indices. -/
def wrapped (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The inverse square root of (in-degree + 1) of every node. -/
def invSqrtDeg (dst : (⟨S1600000, .i32⟩ : BufTy).Contents (Elt F)) : (⟨S100000, .f32⟩ : BufTy).Contents (Elt F) :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The edge weights d[src]·d[dst]. -/
def edgeWeight (src dst : (⟨S1600000, .i32⟩ : BufTy).Contents (Elt F)) : (⟨S1600000, .f32⟩ : BufTy).Contents (Elt F) :=
  mulf (Host.gather gather_S100000_S1600000x1_S1600000_n_0_n_n_0_1_1 (invSqrtDeg dst) (wrapped src))
    (Host.gather gather_S100000_S1600000x1_S1600000_n_0_n_n_0_1_1 (invSqrtDeg dst) (wrapped dst))

/-- The mixing matrix A = W − Wᵀ − ε·I. -/
def mixing (w : (⟨S128x128, .f32⟩ : BufTy).Contents (Elt F)) : (⟨S128x128, .f32⟩ : BufTy).Contents (Elt F) :=
  subf (subf w (transpose S128x128 [1, 0] w transposes_S128x128_S128x128_1_0))
    (mulf (broadcastInDim S128x128 ![] bcast_S_S128x128 (constant S_ .f32 0x3DCCCCCD#32))
      (uitofp .f32 (cmpi .eq (addi (iotaInDim S128x128 32 0) (broadcastInDim S128x128 ![] bcast_S_S128x128 (constantI S_ 32 0#32)))
        (iotaInDim S128x128 32 1))))

/-- The aggregate of a projected feature matrix over the graph: the edge term scattered to the destinations plus the
    self-loop term (`nc` the edge weights, `sc` the self-loop weights, both as columns). -/
def aggregate (src dst : (⟨S1600000, .i32⟩ : BufTy).Contents (Elt F)) (nc : (⟨S1600000x1, .f32⟩ : BufTy).Contents (Elt F))
    (sc : (⟨S100000x1, .f32⟩ : BufTy).Contents (Elt F)) (xw : (⟨S100000x128, .f32⟩ : BufTy).Contents (Elt F)) :
    (⟨S100000x128, .f32⟩ : BufTy).Contents (Elt F) :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (Host.gather gather_S100000x128_S1600000x1_S1600000x128_1_0_n_n_0_1_1128 xw (wrapped src))
        (broadcastInDim S1600000x128 ![0, 1] bcast_S1600000x1_S1600000x128_0_1 nc)))
    (mulf xw (broadcastInDim S100000x128 ![0, 1] bcast_S100000x1_S100000x128_0_1 sc))

/-- The product of the node features with the transpose of a 128 × 128 matrix. -/
def timesT (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x (transpose S128x128 [1, 0] w transposes_S128x128_S128x128_1_0)

/-- One layer of the reference. -/
def step (e : (⟨S2x1600000, .i32⟩ : BufTy).Contents (Elt F)) (w wphi : (⟨S128x128, .f32⟩ : BufTy).Contents (Elt F))
    (b : (⟨S128, .f32⟩ : BufTy).Contents (Elt F)) (x : (⟨S100000x128, .f32⟩ : BufTy).Contents (Elt F)) :
    (⟨S100000x128, .f32⟩ : BufTy).Contents (Elt F) :=
  addf x (mulf (broadcastInDim S100000x128 ![] bcast_S_S100000x128 (constant S_ .f32 0x3DCCCCCD#32))
    (Host.tanh (addf (addf (timesT x (mixing w))
        (aggregate (edgeRow0 e) (edgeRow1 e)
          (broadcastInDim S1600000x1 ![0] bcast_S1600000_S1600000x1_0 (edgeWeight (edgeRow0 e) (edgeRow1 e)))
          (broadcastInDim S100000x1 ![0] bcast_S100000_S100000x1_0 (mulf (invSqrtDeg (edgeRow1 e)) (invSqrtDeg (edgeRow1 e))))
          (timesT x wphi)))
      (broadcastInDim S100000x128 ![0, 1] bcast_S1x128_S100000x128_0_1 (broadcastInDim S1x128 ![1] bcast_S128_S1x128_1 b)))))

variable (V : Valuation τ sig (Elt F))

/-- The features after the first layer. -/
theorem after1 : res_main_v66 V = step (V (Proc.devRef .tc main_arg1)) (V (Proc.devRef .tc main_arg2)) (V (Proc.devRef .tc main_arg3)) (V (Proc.devRef .tc main_arg4)) (V (Proc.devRef .tc main_arg0)) := rfl

/-- The features after the second layer. -/
theorem after2 : res_main_v118 V = step (V (Proc.devRef .tc main_arg1)) (V (Proc.devRef .tc main_arg2)) (V (Proc.devRef .tc main_arg3)) (V (Proc.devRef .tc main_arg4)) (res_main_v66 V) := rfl

/-- The features after the third layer. -/
theorem after3 : res_main_v170 V = step (V (Proc.devRef .tc main_arg1)) (V (Proc.devRef .tc main_arg2)) (V (Proc.devRef .tc main_arg3)) (V (Proc.devRef .tc main_arg4)) (res_main_v118 V) := rfl

/-- The result is the fourth layer of the third layer's features. -/
theorem after4 : addf (res_main_v170 V) (mulf (broadcastInDim S100000x128 ![] bcast_S_S100000x128 (constant S_ .f32 0x3DCCCCCD#32)) (Host.tanh (addf (addf (Host.dotGeneral dot_S100000x128_S128x128_S100000x128_1_0_0_1_n_n none (res_main_v170 V) (transpose S128x128 [1, 0] (res_main_v14 V) transposes_S128x128_S128x128_1_0)) (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (res_main_v3 V)) (mulf (Host.gather gather_S100000x128_S1600000x1_S1600000x128_1_0_n_n_0_1_1128 (res_main_v172 V) (broadcastInDim S1600000x1 ![0] bcast_S1600000_S1600000x1_0 (select (cmpi .slt (res_main_v1 V) (broadcastInDim S1600000 ![] bcast_S_S1600000 (constantI S_ 32 0#32))) (addi (res_main_v1 V) (broadcastInDim S1600000 ![] bcast_S_S1600000 (constantI S_ 32 100000#32))) (res_main_v1 V)))) (broadcastInDim S1600000x128 ![0, 1] bcast_S1600000x1_S1600000x128_0_1 (broadcastInDim S1600000x1 ![0] bcast_S1600000_S1600000x1_0 (mulf (Host.gather gather_S100000_S1600000x1_S1600000_n_0_n_n_0_1_1 (res_main_v179 V) (broadcastInDim S1600000x1 ![0] bcast_S1600000_S1600000x1_0 (select (cmpi .slt (res_main_v1 V) (broadcastInDim S1600000 ![] bcast_S_S1600000 (constantI S_ 32 0#32))) (addi (res_main_v1 V) (broadcastInDim S1600000 ![] bcast_S_S1600000 (constantI S_ 32 100000#32))) (res_main_v1 V)))) (Host.gather gather_S100000_S1600000x1_S1600000_n_0_n_n_0_1_1 (res_main_v179 V) (broadcastInDim S1600000x1 ![0] bcast_S1600000_S1600000x1_0 (select (cmpi .slt (res_main_v3 V) (broadcastInDim S1600000 ![] bcast_S_S1600000 (constantI S_ 32 0#32))) (addi (res_main_v3 V) (broadcastInDim S1600000 ![] bcast_S_S1600000 (constantI S_ 32 100000#32))) (res_main_v3 V))))))))) (mulf (res_main_v172 V) (broadcastInDim S100000x128 ![0, 1] bcast_S100000x1_S100000x128_0_1 (broadcastInDim S100000x1 ![0] bcast_S100000_S100000x1_0 (mulf (res_main_v179 V) (res_main_v179 V))))))) (broadcastInDim S100000x128 ![0, 1] bcast_S1x128_S100000x128_0_1 (broadcastInDim S1x128 ![1] bcast_S128_S1x128_1 (V (Proc.devRef .tc main_arg4)))))))
    = step (V (Proc.devRef .tc main_arg1)) (V (Proc.devRef .tc main_arg2)) (V (Proc.devRef .tc main_arg3)) (V (Proc.devRef .tc main_arg4)) (res_main_v170 V) := rfl

/-- Every weakly fair execution of the reference terminates with its result at four layers of its first argument and
    its arguments unchanged. -/
theorem run_layers (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v222)
        = step (m ((c.tc : Thread nD τ).loc main_arg1)) (m ((c.tc : Thread nD τ).loc main_arg2)) (m ((c.tc : Thread nD τ).loc main_arg3)) (m ((c.tc : Thread nD τ).loc main_arg4))
           (step (m ((c.tc : Thread nD τ).loc main_arg1)) (m ((c.tc : Thread nD τ).loc main_arg2)) (m ((c.tc : Thread nD τ).loc main_arg3)) (m ((c.tc : Thread nD τ).loc main_arg4))
             (step (m ((c.tc : Thread nD τ).loc main_arg1)) (m ((c.tc : Thread nD τ).loc main_arg2)) (m ((c.tc : Thread nD τ).loc main_arg3)) (m ((c.tc : Thread nD τ).loc main_arg4))
               (step (m ((c.tc : Thread nD τ).loc main_arg1)) (m ((c.tc : Thread nD τ).loc main_arg2)) (m ((c.tc : Thread nD τ).loc main_arg3)) (m ((c.tc : Thread nD τ).loc main_arg4))
                 (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [after4 (launchContents m c), after3 (launchContents m c), after2 (launchContents m c), after1 (launchContents m c)]), (h c).2⟩) (Value.run (F := F) m ρ)

end Cert.ReferenceIdeal.Layers

end
-- ==== Proof.Bridge.lean ====
/-
  One layer of the kernel program is one layer of the reference.

  Both are x + ε · tanh (x·Aᵀ + aggregate (x·Wφᵀ) + b) of the same arguments. The kernel program reads A and Wφ
  transposed and narrowed to bf16 — the identity on the extended reals —, spells each product as a sum over the 128
  features (a matrix product into a zero accumulator, block by block), takes the bias as a one-row matrix, and computes
  the degree normalisation once; the reference spells the products as host contractions, broadcasts the bias vector
  over the rows, and recomputes the normalisation per layer from the same edge list. The host operations that build
  the aggregate are the same on both sides, so once the reference's products and update are read entry by entry the
  two layers are one function.
-/
import proofs.«162889_j14310831030632_1_alg».proof.Proof.Layers
import proofs.«162889_j14310831030632_1_alg».proof.Proof.Hoisted
import proofs.«162889_j14310831030632_1_alg».proof.Proof.Reference

set_option maxRecDepth 16384

noncomputable section

namespace Cert.Proof.Bridge

open Idealize.ShloMosaic Idealize.ShloMosaic.TcCoe Idealize.SL.Sem
open Cert.Layer

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 4000000 in
/-- The kernel program's layer, from the seven buffers it computes once, is the reference's layer of the arguments. -/
theorem layer_eq_step (x : SN.Idx → EReal) :
    Cert.KernelIdeal.Layers.layer (Cert.KernelIdeal.Gen.W1 m ρ c) x
      = Cert.ReferenceIdeal.Layers.step (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) x := by
  have h1 : Cert.KernelIdeal.Gen.W1 m ρ c (Proc.devRef .tc Cert.KernelIdeal.main_v1) = Cert.KernelIdeal.Hoisted.edgeRow0 (m ((c.tc : Thread Cert.KernelIdeal.nD Cert.KernelIdeal.τ).loc Cert.KernelIdeal.main_arg1)) :=
    Cert.KernelIdeal.Hoisted.sources (Cert.KernelIdeal.Gen.W0 m ρ c)
  have h3 : Cert.KernelIdeal.Gen.W1 m ρ c (Proc.devRef .tc Cert.KernelIdeal.main_v3) = Cert.KernelIdeal.Hoisted.edgeRow1 (m ((c.tc : Thread Cert.KernelIdeal.nD Cert.KernelIdeal.τ).loc Cert.KernelIdeal.main_arg1)) :=
    Cert.KernelIdeal.Hoisted.destinations (Cert.KernelIdeal.Gen.W0 m ρ c)
  have h16 : Cert.KernelIdeal.Gen.W1 m ρ c (Proc.devRef .tc Cert.KernelIdeal.main_v16)
      = truncf (F := Ideal) (φ := .f32) .bf16 (transpose Cert.KernelIdeal.S128x128 [1, 0] (Cert.KernelIdeal.Hoisted.mixing (m ((c.tc : Thread Cert.KernelIdeal.nD Cert.KernelIdeal.τ).loc Cert.KernelIdeal.main_arg2))) Cert.KernelIdeal.Gen.transposes_S128x128_S128x128_1_0) Cert.KernelIdeal.Gen.bitsLt_bf16_f32 :=
    Cert.KernelIdeal.Hoisted.mixingT (Cert.KernelIdeal.Gen.W0 m ρ c)
  have h18 : Cert.KernelIdeal.Gen.W1 m ρ c (Proc.devRef .tc Cert.KernelIdeal.main_v18)
      = truncf (F := Ideal) (φ := .f32) .bf16 (transpose Cert.KernelIdeal.S128x128 [1, 0] (m ((c.tc : Thread Cert.KernelIdeal.nD Cert.KernelIdeal.τ).loc Cert.KernelIdeal.main_arg3)) Cert.KernelIdeal.Gen.transposes_S128x128_S128x128_1_0) Cert.KernelIdeal.Gen.bitsLt_bf16_f32 :=
    Cert.KernelIdeal.Hoisted.projectionT (Cert.KernelIdeal.Gen.W0 m ρ c)
  have h19 : Cert.KernelIdeal.Gen.W1 m ρ c (Proc.devRef .tc Cert.KernelIdeal.main_v19) = shapeCast _ (m ((c.tc : Thread Cert.KernelIdeal.nD Cert.KernelIdeal.τ).loc Cert.KernelIdeal.main_arg4)) Cert.KernelIdeal.Gen.shapeCasts_S128_S1x128 :=
    Cert.KernelIdeal.Hoisted.biasRow (Cert.KernelIdeal.Gen.W0 m ρ c)
  have h42 : Cert.KernelIdeal.Gen.W1 m ρ c (Proc.devRef .tc Cert.KernelIdeal.main_v42)
      = broadcastInDim Cert.KernelIdeal.S1600000x1 ![0] Cert.KernelIdeal.Gen.bcast_S1600000_S1600000x1_0
          (Cert.KernelIdeal.Hoisted.edgeWeight (Cert.KernelIdeal.Hoisted.edgeRow0 (m ((c.tc : Thread Cert.KernelIdeal.nD Cert.KernelIdeal.τ).loc Cert.KernelIdeal.main_arg1))) (Cert.KernelIdeal.Hoisted.edgeRow1 (m ((c.tc : Thread Cert.KernelIdeal.nD Cert.KernelIdeal.τ).loc Cert.KernelIdeal.main_arg1)))) :=
    Cert.KernelIdeal.Hoisted.edgeColumn (Cert.KernelIdeal.Gen.W0 m ρ c)
  have h44 : Cert.KernelIdeal.Gen.W1 m ρ c (Proc.devRef .tc Cert.KernelIdeal.main_v44)
      = broadcastInDim Cert.KernelIdeal.S100000x1 ![0] Cert.KernelIdeal.Gen.bcast_S100000_S100000x1_0
          (mulf (Cert.KernelIdeal.Hoisted.invSqrtDeg (Cert.KernelIdeal.Hoisted.edgeRow1 (m ((c.tc : Thread Cert.KernelIdeal.nD Cert.KernelIdeal.τ).loc Cert.KernelIdeal.main_arg1)))) (Cert.KernelIdeal.Hoisted.invSqrtDeg (Cert.KernelIdeal.Hoisted.edgeRow1 (m ((c.tc : Thread Cert.KernelIdeal.nD Cert.KernelIdeal.τ).loc Cert.KernelIdeal.main_arg1))))) :=
    Cert.KernelIdeal.Hoisted.selfColumn (Cert.KernelIdeal.Gen.W0 m ρ c)
  unfold Cert.KernelIdeal.Layers.layer
  rw [h1, h3, h16, h18, h19, h42, h44]
  have hu := update_host Cert.ReferenceIdeal.dot_S100000x128_S128x128_S100000x128_1_0_0_1_n_n rfl x
    (transpose Cert.ReferenceIdeal.S128x128 [1, 0] (Cert.ReferenceIdeal.Layers.mixing (F := Ideal) (m ((c.tc : Thread Cert.KernelIdeal.nD Cert.KernelIdeal.τ).loc Cert.KernelIdeal.main_arg2))) Cert.ReferenceIdeal.Gen.transposes_S128x128_S128x128_1_0)
    (Cert.ReferenceIdeal.Layers.aggregate (F := Ideal) (Cert.ReferenceIdeal.Layers.edgeRow0 (m ((c.tc : Thread Cert.KernelIdeal.nD Cert.KernelIdeal.τ).loc Cert.KernelIdeal.main_arg1))) (Cert.ReferenceIdeal.Layers.edgeRow1 (m ((c.tc : Thread Cert.KernelIdeal.nD Cert.KernelIdeal.τ).loc Cert.KernelIdeal.main_arg1)))
      (broadcastInDim Cert.ReferenceIdeal.S1600000x1 ![0] Cert.ReferenceIdeal.Gen.bcast_S1600000_S1600000x1_0
        (Cert.ReferenceIdeal.Layers.edgeWeight (Cert.ReferenceIdeal.Layers.edgeRow0 (m ((c.tc : Thread Cert.KernelIdeal.nD Cert.KernelIdeal.τ).loc Cert.KernelIdeal.main_arg1))) (Cert.ReferenceIdeal.Layers.edgeRow1 (m ((c.tc : Thread Cert.KernelIdeal.nD Cert.KernelIdeal.τ).loc Cert.KernelIdeal.main_arg1)))))
      (broadcastInDim Cert.ReferenceIdeal.S100000x1 ![0] Cert.ReferenceIdeal.Gen.bcast_S100000_S100000x1_0
        (mulf (Cert.ReferenceIdeal.Layers.invSqrtDeg (Cert.ReferenceIdeal.Layers.edgeRow1 (m ((c.tc : Thread Cert.KernelIdeal.nD Cert.KernelIdeal.τ).loc Cert.KernelIdeal.main_arg1)))) (Cert.ReferenceIdeal.Layers.invSqrtDeg (Cert.ReferenceIdeal.Layers.edgeRow1 (m ((c.tc : Thread Cert.KernelIdeal.nD Cert.KernelIdeal.τ).loc Cert.KernelIdeal.main_arg1))))))
      (Cert.ReferenceIdeal.Layers.timesT x (m ((c.tc : Thread Cert.KernelIdeal.nD Cert.KernelIdeal.τ).loc Cert.KernelIdeal.main_arg3))))
    (m ((c.tc : Thread Cert.KernelIdeal.nD Cert.KernelIdeal.τ).loc Cert.KernelIdeal.main_arg4)) Cert.ReferenceIdeal.Gen.bcast_S_S100000x128 Cert.ReferenceIdeal.Gen.bcast_S128_S1x128_1 Cert.ReferenceIdeal.Gen.bcast_S1x128_S100000x128_0_1 Cert.KernelIdeal.Gen.shapeCasts_S128_S1x128
  refine Eq.trans ?_ hu.symm
  rw [show Cert.ReferenceIdeal.Layers.timesT (F := Ideal) x (m ((c.tc : Thread Cert.KernelIdeal.nD Cert.KernelIdeal.τ).loc Cert.KernelIdeal.main_arg3))
      = mm x (transpose Cert.ReferenceIdeal.S128x128 [1, 0] (m ((c.tc : Thread Cert.KernelIdeal.nD Cert.KernelIdeal.τ).loc Cert.KernelIdeal.main_arg3)) Cert.ReferenceIdeal.Gen.transposes_S128x128_S128x128_1_0) from
    product_host Cert.ReferenceIdeal.dot_S100000x128_S128x128_S100000x128_1_0_0_1_n_n rfl x _]
  rfl

end Cert.Proof.Bridge

end
-- ==== Proof.lean ====
/-
  The certificate of the anti-symmetric graph convolution: four layers
      x ← x + ε · tanh (x·Aᵀ + aggregate (x·Wφᵀ) + b),   A = W − Wᵀ − ε·I,
  over 100000 nodes with 128 features and 1600000 edges.

  The kernel program runs each layer as a pipelined projection call, a stretch of host gather / scatter operations and
  a pipelined update call, and computes the degree normalisation once; the reference is a straight line of host
  operations that recomputes it per layer. On the extended reals narrowing to bf16 is the identity and every product
  is the plain sum over the 128 features, whichever way it is blocked, so both programs apply the same layer function
  four times to the first argument (Proof/Bridge.lean). No finiteness of the inputs is used: the two sides are the same
  arithmetic in the same order, entry by entry.

  The three frames are the programs' runs with the results dropped; the idealized kernel is the kernel's own text read
  on the extended reals, so nothing is owed for it beyond that.
-/
import proofs.«162889_j14310831030632_1_alg».proof.Defs
import proofs.«162889_j14310831030632_1_alg».proof.Proof.Gen.Kernel
import proofs.«162889_j14310831030632_1_alg».proof.Proof.Gen.Kernel.Skeleton
import proofs.«162889_j14310831030632_1_alg».proof.Proof.Gen.Kernel.Launch
import proofs.«162889_j14310831030632_1_alg».proof.Proof.Gen.Kernel.Points
import proofs.«162889_j14310831030632_1_alg».proof.Proof.Gen.Kernel.Frame
import proofs.«162889_j14310831030632_1_alg».proof.Proof.Gen.KernelIdeal
import proofs.«162889_j14310831030632_1_alg».proof.Proof.Gen.KernelIdeal.Skeleton
import proofs.«162889_j14310831030632_1_alg».proof.Proof.Gen.KernelIdeal.Launch
import proofs.«162889_j14310831030632_1_alg».proof.Proof.Gen.KernelIdeal.Points
import proofs.«162889_j14310831030632_1_alg».proof.Proof.Gen.KernelIdeal.Frame
import proofs.«162889_j14310831030632_1_alg».proof.Proof.Gen.ReferenceIdeal
import proofs.«162889_j14310831030632_1_alg».proof.Proof.Gen.Pre_finite_inputs
import proofs.«162889_j14310831030632_1_alg».proof.Proof.Gen.ReferenceIdeal.Run
import proofs.«162889_j14310831030632_1_alg».proof.Proof.KernelRun
import proofs.«162889_j14310831030632_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with four layers of the first argument. -/
theorem algebraic : Cert.algebraic_KernelIdeal_ReferenceIdeal := by
  intro m ρ m' ρ' _ hagree
  refine ⟨fun c => Cert.KernelIdeal.Layers.layer (Cert.KernelIdeal.Gen.W1 m ρ c) (Cert.KernelIdeal.Layers.layer (Cert.KernelIdeal.Gen.W1 m ρ c)
      (Cert.KernelIdeal.Layers.layer (Cert.KernelIdeal.Gen.W1 m ρ c) (Cert.KernelIdeal.Layers.layer (Cert.KernelIdeal.Gen.W1 m ρ c)
        (m ((c.tc : Thread Cert.KernelIdeal.nD Cert.KernelIdeal.τ).loc Cert.KernelIdeal.main_arg0))))), ?_, ?_⟩
  · exact (θ_run Cert.KernelIdeal.defs _ _).mono
      (fun r h c => ⟨(h c).1.trans (Cert.KernelIdeal.Layers.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Layers.run_layers (F := Ideal) m' ρ')
    rw [(hagree c).1, (hagree c).2.1, (hagree c).2.2.1, (hagree c).2.2.2.1, (hagree c).2.2.2.2]
    show _ = Cert.KernelIdeal.Layers.layer (Cert.KernelIdeal.Gen.W1 m ρ c) _
    rw [Cert.Proof.Bridge.layer_eq_step m ρ c, Cert.Proof.Bridge.layer_eq_step m ρ c, Cert.Proof.Bridge.layer_eq_step m ρ c,
      Cert.Proof.Bridge.layer_eq_step m ρ c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
